-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S16x4096x1 : Shape := ⟨3, ![16, 4096, 1]⟩
abbrev S1x1024x3 : Shape := ⟨3, ![1, 1024, 3]⟩
abbrev S1x4096x3 : Shape := ⟨3, ![1, 4096, 3]⟩
abbrev S1x1024x1 : Shape := ⟨3, ![1, 1024, 1]⟩
abbrev S1x4096x1 : Shape := ⟨3, ![1, 4096, 1]⟩
abbrev S3x4096 : Shape := ⟨2, ![3, 4096]⟩
abbrev S4096x3 : Shape := ⟨2, ![4096, 3]⟩
abbrev S1024x3 : Shape := ⟨2, ![1024, 3]⟩
abbrev S1024x1 : Shape := ⟨2, ![1024, 1]⟩
abbrev S1x4096 : Shape := ⟨2, ![1, 4096]⟩
abbrev S1024x4096 : Shape := ⟨2, ![1024, 4096]⟩
abbrev S1024 : Shape := ⟨1, ![1024]⟩
abbrev S4096 : Shape := ⟨1, ![4096]⟩
abbrev S16x4096 : Shape := ⟨2, ![16, 4096]⟩
abbrev S_ : Shape := ⟨0, ![]⟩
abbrev S16 : Shape := ⟨1, ![16]⟩

abbrev nBuf : Space → Nat
  | .hbm => 21
  | .vmem => 9
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x1, .f32⟩
  | .hbm, ⟨3, _⟩ => ⟨S16x4096x1, .f32⟩
  | .hbm, ⟨4, _⟩ => ⟨S16x4096, .f32⟩
  | .hbm, ⟨5, _⟩ => ⟨S16x4096, .f32⟩
  | .hbm, ⟨6, _⟩ => ⟨S_, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x4096x3, .f32⟩
  | .local _ .vmem, ⟨3, _⟩ => ⟨S1x4096x3, .f32⟩
  | .local _ .vmem, ⟨4, _⟩ => ⟨S1x1024x1, .f32⟩
  | .local _ .vmem, ⟨5, _⟩ => ⟨S1x1024x1, .f32⟩
  | .local _ .vmem, ⟨6, _⟩ => ⟨S1x4096x1, .f32⟩
  | .local _ .vmem, ⟨7, _⟩ => ⟨S1x4096x1, .f32⟩
  | .local _ .vmem, ⟨8, _⟩ => ⟨S3x4096, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c0_i32_9 : BitVec 32 := 0#32
  let v32 : BitVec 1 := Scalar.cmpi .eq arg1 c0_i32_9
  let v33 : BitVec 32 := Scalar.extui v32
  let c0_i32_10 : BitVec 32 := 0#32
  let v34 : BitVec 1 := Scalar.cmpi .ne v33 c0_i32_10
  v34

def k0_cond3 (i : grid0.Coords) : BitVec 1 :=
  let arg1 : BitVec 32 := BitVec.ofNat 32 (i 1).val
  let c0_i32_11 : BitVec 32 := 0#32
  let v35 : BitVec 1 := Scalar.cmpi .ne arg1 c0_i32_11
  let v36 : BitVec 32 := Scalar.extui v35
  let c0_i32_12 : BitVec 32 := 0#32
  let v37 : BitVec 1 := Scalar.cmpi .ne v36 c0_i32_12
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  transposes_S4096x3_p1_0_S3x4096 : S4096x3.Transposes [1, 0] S3x4096
  inb_S3x4096_S3x4096_0_0 : ∀ a, (![0, 0] : Fin 2 → Nat) a + S3x4096.size a ≤ S3x4096.size a
  h_S3x4096 : 0 < S3x4096.numel
  shapeCasts_S3x4096_S3x4096 : S3x4096.ShapeCasts S3x4096
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  slices_S1024x3_o0_0_S1024x1 : S1024x3.Slices ![0, 0] S1024x1
  slices_S3x4096_o0_0_S1x4096 : S3x4096.Slices ![0, 0] S1x4096
  broadcasts_S1024x1_S1024x4096 : S1024x1.Broadcasts S1024x4096
  broadcasts_S1x4096_S1024x4096 : S1x4096.Broadcasts S1024x4096
  slices_S1024x3_o0_1_S1024x1 : S1024x3.Slices ![0, 1] S1024x1
  slices_S3x4096_o1_0_S1x4096 : S3x4096.Slices ![1, 0] S1x4096
  slices_S1024x3_o0_2_S1024x1 : S1024x3.Slices ![0, 2] S1024x1
  slices_S3x4096_o2_0_S1x4096 : S3x4096.Slices ![2, 0] S1x4096
  reduces_S1024x4096_S1024 : S1024x4096.Reduces [1] S1024
  shapeCasts_S1024_S1024x1 : S1024.ShapeCasts S1024x1
  shapeCasts_S1024x1_S1x1024x1 : S1024x1.ShapeCasts S1x1024x1
  inb_S1x1024x1_S1x1024x1_0_0_0 : ∀ a, (![0, 0, 0] : Fin 3 → Nat) a + S1x1024x1.size a ≤ S1x1024x1.size a
  h_S1x1024x1 : 0 < S1x1024x1.numel
  reduces_S1024x4096_S4096 : S1024x4096.Reduces [0] S4096
  shapeCasts_S4096_S1x4096 : S4096.ShapeCasts S1x4096
  shapeCasts_S1x4096_S1x4096x1 : S1x4096.ShapeCasts S1x4096x1
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S1x4096x1 : S1x4096x1.ShapeCasts S1x4096x1
  shapeCasts_S16x4096x1_S16x4096 : S16x4096x1.ShapeCasts S16x4096
  reducesTo_S16x4096_S16_d1 : S16x4096.ReducesTo [1] S16
  h_S_ : 0 < S_.numel
  bcast_S_S16 : S_.BroadcastsInDim S16 (![] : Fin 0 → Fin S16.rank)
  reducesTo_S16_S_d0 : S16.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S16x4096x3.size a
  hwx0_0 : ∀ i : grid0.Coords, EltTy.bits .f32 = 32 ∨ (Rect.block (s := S16x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S16x4096x3.size a
  hwx0_1 : ∀ i : grid0.Coords, EltTy.bits .f32 = 32 ∨ (Rect.block (s := S16x4096x3) S1x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S16x4096x1.size a
  hwx0_2 : ∀ i : grid0.Coords, EltTy.bits .f32 = 32 ∨ (Rect.block (s := S16x4096x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x1.size a ≤ S16x4096x1.size a
  hwx0_3 : ∀ i : grid0.Coords, EltTy.bits .f32 = 32 ∨ (Rect.block (s := S16x4096x1) S1x4096x1.size (cc0_transform_3 i) (hinb0_3 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x4096x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) && !(k0_cond3 i == 1#1) | ⟨_ + 4, h⟩ => absurd h (Nat.not_lt.2 (Nat.le_add_left _ _))

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S16 : Shape := ⟨1, ![16]⟩

abbrev nBuf : Space → Nat
  | .hbm => 37
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16x4096, .f32⟩
  | .hbm, ⟨27, _⟩ => ⟨S_, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096_S16_d1 : S16x4096.ReducesTo [1] S16
  bcast_S_S16 : S_.BroadcastsInDim S16 (![] : Fin 0 → Fin S16.rank)
  reducesTo_S16x4096x4096_S16x4096_d1 : S16x4096x4096.ReducesTo [1] S16x4096
  reducesTo_S16_S_d0 : S16.ReducesTo [0] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.TilePoints.lean ====
/-
  The grid of the pairwise-distance kernel is 16 batches by 4 row tiles, walked batch by batch: point `t` is
  tile `t % 4` of batch `t / 4`. The body branches three times on the tile number alone:
    * at tile 0 it transposes the batch's key block (4096 by 3) into the 3 by 4096 scratch, which the later
      tiles of the batch read back;
    * at tile 0 it stores the tile's column minima into the resident column block;
    * at the later tiles it folds the tile's column minima into that block by an entrywise minimum.
  So there are two kinds of point, "first tile" (`t % 4 = 0`) and "later tile" (`t % 4 ≠ 0`). This module decides
  the three conditions over the 64 points, records that no window is ever idle, names the staging memrefs the
  pipeline passes at a point and the scratch, and spells the region invariant with the scratch as an owned memref.
-/
import proofs.«120201_j80212809220557_2_alg».proof.Proof.Gen.KernelIdeal.Frame
import proofs.«120201_j80212809220557_2_alg».proof.Proof.Gen.KernelIdeal.Skeleton

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions of the body, as propositions over the grid coordinates -/

/-- The tile number (second grid coordinate) is zero, as the body's first branch computes it. -/
abbrev keyTransposed (i : grid0.Coords) : Prop :=
  (Scalar.cmpi .ne (Scalar.extui (Scalar.cmpi .eq (BitVec.ofNat 32 (i 1).val) 0#32)) 0#32) = 1#1
/-- The branch that stores the column minima afresh. -/
abbrev colReset (i : grid0.Coords) : Prop := k0_cond2 i = 1#1
/-- The branch that folds the column minima into what the batch's earlier tiles left. -/
abbrev colFolded (i : grid0.Coords) : Prop := k0_cond3 i = 1#1

/-- The first branch is taken exactly at tile 0 of each batch. -/
theorem keyTransposed_iff : ∀ t : Fin cfg0.N, keyTransposed (grid0.coords t) ↔ t.val % 4 = 0 :=
  (by decide +kernel : ∀ t : Fin grid0.N, keyTransposed (grid0.coords t) ↔ t.val % 4 = 0)
/-- So is the second. -/
theorem colReset_iff : ∀ t : Fin cfg0.N, colReset (grid0.coords t) ↔ t.val % 4 = 0 :=
  (by decide +kernel : ∀ t : Fin grid0.N, colReset (grid0.coords t) ↔ t.val % 4 = 0)
/-- The third is taken exactly at the other tiles. -/
theorem colFolded_iff : ∀ t : Fin cfg0.N, colFolded (grid0.coords t) ↔ ¬ t.val % 4 = 0 :=
  (by decide +kernel : ∀ t : Fin grid0.N, colFolded (grid0.coords t) ↔ ¬ t.val % 4 = 0)

/-! ## No window is idle anywhere: every point stores into both outputs -/

theorem live_x : ∀ t : Fin cfg0.N, cfg0.idle 0 (grid0.coords t) = false := by decide +kernel
theorem live_y : ∀ t : Fin cfg0.N, cfg0.idle 1 (grid0.coords t) = false := by decide +kernel
theorem live_row : ∀ t : Fin cfg0.N, cfg0.idle 2 (grid0.coords t) = false := by decide +kernel
theorem live_col : ∀ t : Fin cfg0.N, cfg0.idle 3 (grid0.coords t) = false := by decide +kernel
/-- The column block is live at every coordinate pair, on the grid or not (one of the two column branches is
    always taken). -/
theorem live_col_all : ∀ i : grid0.Coords, cfg0.idle 3 i = false := by decide +kernel

/-! ## The memrefs the body is called with at a point -/

abbrev xM (t : Fin cfg0.N) : Memref sig .tc .vmem S1x1024x3 .f32 := win0_0.stage (cfg0.slots t 0)
abbrev hxM (t : Fin cfg0.N) : (xM t).IsWhole := hstage0_0 ((cfg0.slots t 0).cast nbuf0_0)
abbrev yM (t : Fin cfg0.N) : Memref sig .tc .vmem S1x4096x3 .f32 := win0_1.stage (cfg0.slots t 1)
abbrev hyM (t : Fin cfg0.N) : (yM t).IsWhole := hstage0_1 ((cfg0.slots t 1).cast nbuf0_1)
abbrev rowM (t : Fin cfg0.N) : Memref sig .tc .vmem S1x1024x1 .f32 := win0_2.stage (cfg0.slots t 2)
abbrev hrowM (t : Fin cfg0.N) : (rowM t).IsWhole := hstage0_2 ((cfg0.slots t 2).cast nbuf0_2)
abbrev colM (t : Fin cfg0.N) : Memref sig .tc .vmem S1x4096x1 .f32 := win0_3.stage (cfg0.slots t 3)
abbrev hcolM (t : Fin cfg0.N) : (colM t).IsWhole := hstage0_3 ((cfg0.slots t 3).cast nbuf0_3)
/-- The scratch that holds the transposed key block: a whole scoped buffer of the kernel's own. -/
abbrev keyM : Memref sig .tc .vmem S3x4096 .f32 := Memref.whole cc0_scratch0

/-- One staging buffer of each output window and the scratch, as views through which contents are stated. -/
abbrev rowV : View sig .tc .vmem S1x1024x1 .f32 := (Memref.whole cc0_stg2_0 : Memref sig .tc .vmem S1x1024x1 .f32).view
abbrev colV : View sig .tc .vmem S1x4096x1 .f32 := (Memref.whole cc0_stg3_0 : Memref sig .tc .vmem S1x4096x1 .f32).view
abbrev keyV : View sig .tc .vmem S3x4096 .f32 := keyM.view

/-- The region's class invariant with the scratch as a memref owned at some contents. -/
theorem classInv_eq (c : Dev nD) :
    (Pipeline.ΦA spec0 c : sProp 𝕄)
      = iprop(iprop((∃ d, owns (c : Thread nD τ) keyM fullShare d)) ∗ (∃ r, prngReg c r)) := by
  unfold Pipeline.ΦA; rw [scopedRest0_eq]; simp only [keyM, owns_whole]; try rfl

end Cert.KernelIdeal.Tile

end
-- ==== Proof.FirstTile.lean ====
/-
  The body at the first tile of a batch (tile number 0), run whole: it transposes the key block into the scratch
  (whatever the scratch held), loads the query tile and the scratch back, stores the tile's row minima, and
  stores the tile's column minima afresh into the column block (whatever that held). The run hands the two
  inputs back as they were and each written buffer with the pieces written into it; the pieces are found by
  the run itself.
-/
import proofs.«120201_j80212809220557_2_alg».proof.Proof.TilePoints

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the row block, the column block and the scratch at a first tile, with the
    proof that from whole memrefs — the inputs at `x0`, `y0`, the two outputs and the scratch at anything — it
    runs to the continuation holding the inputs as they were and each other buffer with its pieces written. -/
noncomputable def runFirst (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x4096x1 .f32) (harg5 : arg5.IsWhole) (arg6 : Memref sig .tc .vmem S3x4096 .f32) (harg6 : arg6.IsWhole) (h1 : keyTransposed i) (h2 : colReset i) (h3 : ¬ colFolded i)
    (x0 : Vec F S1x1024x3 .f32) (y0 : Vec F S1x4096x3 .f32) :
    Σ' (Lrow : List (View.Piece (Elt F) S1x1024x1 .f32)) (Lcol : List (View.Piece (Elt F) S1x4096x1 .f32)), { Lkey : List (View.Piece (Elt F) S3x4096 .f32) //
      ∀ (E : Set ℕ) (K : PUnit → sProp 𝕄),
        iprop(owns (c : Thread nD τ) arg2 fullShare x0 ∗ owns (c : Thread nD τ) arg3 fullShare y0 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare y0 ∗ (∃ f, arg4.view.loc (c : Thread nD τ) ↦[arg4.view.set]{fullShare} arg4.view.writes (Elt F) f Lrow) ∗ (∃ f, arg5.view.loc (c : Thread nD τ) ↦[arg5.view.set]{fullShare} arg5.view.writes (Elt F) f Lcol) ∗ (∃ f, arg6.view.loc (c : Thread nD τ) ↦[arg6.view.set]{fullShare} arg6.view.writes (Elt F) f Lkey)) -∗ K ⟨⟩))
          ⊢ wp frame (wpE (defs₀ (F := F)) Variants.none c none) E (cc0__chamfer_kernel i arg2 harg2 arg3 harg3 arg4 harg4 arg5 harg5 arg6 harg6) K } := by
  refine ⟨?_, ?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%ds, %fs, -, HS⟩, Hk⟩
    obtain rfl := harg2.eq_unread hf0; obtain rfl := harg3.eq_unread hf1
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.KernelIdeal.Tile

end
-- ==== Proof.LaterTile.lean ====
/-
  The body at a later tile of a batch (tile number 1, 2 or 3), run whole: the scratch already holds the batch's
  transposed key block and is only read; the body stores the tile's row minima and folds the tile's column
  minima into the column block, which holds what the batch's earlier tiles left. The run hands the two inputs
  and the scratch back as they were and each output buffer with the pieces written into it.
-/
import proofs.«120201_j80212809220557_2_alg».proof.Proof.FirstTile

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the row block and the column block at a later tile, with the proof that from
    whole memrefs — the inputs at `x0`, `y0`, the scratch at `k0`, the column block at `a0`, the row block at
    anything — it runs to the continuation holding the inputs and the scratch as they were and each output
    buffer with its pieces written. -/
noncomputable def runLater (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x4096x1 .f32) (harg5 : arg5.IsWhole) (arg6 : Memref sig .tc .vmem S3x4096 .f32) (harg6 : arg6.IsWhole) (h1 : ¬ keyTransposed i) (h2 : ¬ colReset i) (h3 : colFolded i)
    (x0 : Vec F S1x1024x3 .f32) (y0 : Vec F S1x4096x3 .f32) (k0 : Vec F S3x4096 .f32) (a0 : Vec F S1x4096x1 .f32) :
    Σ' (Lrow : List (View.Piece (Elt F) S1x1024x1 .f32)), { Lcol : List (View.Piece (Elt F) S1x4096x1 .f32) //
      ∀ (E : Set ℕ) (K : PUnit → sProp 𝕄),
        iprop(owns (c : Thread nD τ) arg2 fullShare x0 ∗ owns (c : Thread nD τ) arg3 fullShare y0 ∗ (∃ d, owns (c : Thread nD τ) arg4 fullShare d) ∗ owns (c : Thread nD τ) arg5 fullShare a0 ∗ owns (c : Thread nD τ) arg6 fullShare k0
            ∗ (iprop(owns (c : Thread nD τ) arg2 fullShare x0 ∗ owns (c : Thread nD τ) arg3 fullShare y0 ∗ (∃ f, arg4.view.loc (c : Thread nD τ) ↦[arg4.view.set]{fullShare} arg4.view.writes (Elt F) f Lrow) ∗ (∃ f, arg5.view.loc (c : Thread nD τ) ↦[arg5.view.set]{fullShare} arg5.view.writes (Elt F) f Lcol) ∗ owns (c : Thread nD τ) arg6 fullShare k0) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, ⟨%fs, %hfs, HS⟩, Hk⟩
    obtain rfl := harg2.eq_unread hf0; obtain rfl := harg3.eq_unread hf1
    obtain rfl := harg5.eq_unread hf3; obtain rfl := harg6.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; isplitr; · ipureintro; exact harg6.read_unread _
    iexact HS

end Cert.KernelIdeal.Tile

end
-- ==== Proof.TileFrame.lean ====
/-
  The frame of the pairwise-distance kernel: every weakly fair execution of the program terminates without a
  fault and leaves the two argument arrays as they were.

  What the buffers hold is followed point by point. After point `t` (tile `t % 4` of batch `t / 4`):
    * the row block holds what the body stored there at `t` (every point stores it whole);
    * the column block holds, at tile 0, what the body stored afresh, and at a later tile the fold of the
      tile's contribution into what the point before left (the block is not written back inside a batch);
    * the scratch holds, at tile 0, the transposed key block the body stored, and at a later tile what the
      point before left (the body only reads it there).
  The region invariant carries the scratch at exactly these contents between points, so that a later tile
  finds the key block its batch's first tile transposed.
-/
import proofs.«120201_j80212809220557_2_alg».proof.Proof.LaterTile

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One point's run, at the memrefs the pipeline passes there -/

/-- The first-tile run at point `t`. -/
abbrev firstAt (c : Dev nD) (t : Fin cfg0.N) (h0 : t.val % 4 = 0) (x0 : Vec F S1x1024x3 .f32) (y0 : Vec F S1x4096x3 .f32) :=
  runFirst (F := F) c (grid0.coords t) (xM t) (hxM t) (yM t) (hyM t) (rowM t) (hrowM t) (colM t) (hcolM t) keyM (Memref.isWhole_whole _)
    ((keyTransposed_iff t).mpr h0) ((colReset_iff t).mpr h0) (fun h => (colFolded_iff t).mp h h0) x0 y0

/-- The later-tile run at point `t`. -/
abbrev laterAt (c : Dev nD) (t : Fin cfg0.N) (h0 : ¬ t.val % 4 = 0) (x0 : Vec F S1x1024x3 .f32) (y0 : Vec F S1x4096x3 .f32)
    (k0 : Vec F S3x4096 .f32) (a0 : Vec F S1x4096x1 .f32) :=
  runLater (F := F) c (grid0.coords t) (xM t) (hxM t) (yM t) (hyM t) (rowM t) (hrowM t) (colM t) (hcolM t) keyM (Memref.isWhole_whole _)
    (fun h => h0 ((keyTransposed_iff t).mp h)) (fun h => h0 ((colReset_iff t).mp h)) ((colFolded_iff t).mpr h0) x0 y0 k0 a0

/-- The pieces a first tile writes cover the row block, the column block and the scratch (each is one whole store). -/
theorem first_row_cover (c : Dev nD) (t : Fin cfg0.N) (h0 : t.val % 4 = 0) (x0 : Vec F S1x1024x3 .f32) (y0 : Vec F S1x4096x3 .f32) (j : S1x1024x1.Idx) :
    ∃ pc ∈ (firstAt c t h0 x0 y0).1, j ∈ pc.1.set :=
  View.cover_of_tiledL (firstAt c t h0 x0 y0).1 S1x1024x1.size (by sl_kernel_rfl) j
theorem first_col_cover (c : Dev nD) (t : Fin cfg0.N) (h0 : t.val % 4 = 0) (x0 : Vec F S1x1024x3 .f32) (y0 : Vec F S1x4096x3 .f32) (j : S1x4096x1.Idx) :
    ∃ pc ∈ (firstAt c t h0 x0 y0).2.1, j ∈ pc.1.set :=
  View.cover_of_tiledL (firstAt c t h0 x0 y0).2.1 S1x4096x1.size (by sl_kernel_rfl) j
theorem first_key_cover (c : Dev nD) (t : Fin cfg0.N) (h0 : t.val % 4 = 0) (x0 : Vec F S1x1024x3 .f32) (y0 : Vec F S1x4096x3 .f32) (j : S3x4096.Idx) :
    ∃ pc ∈ (firstAt c t h0 x0 y0).2.2.1, j ∈ pc.1.set :=
  View.cover_of_tiledL (firstAt c t h0 x0 y0).2.2.1 S3x4096.size (by sl_kernel_rfl) j
/-- The pieces a later tile writes cover the row block and the column block. -/
theorem later_row_cover (c : Dev nD) (t : Fin cfg0.N) (h0 : ¬ t.val % 4 = 0) (x0 : Vec F S1x1024x3 .f32) (y0 : Vec F S1x4096x3 .f32)
    (k0 : Vec F S3x4096 .f32) (a0 : Vec F S1x4096x1 .f32) (j : S1x1024x1.Idx) :
    ∃ pc ∈ (laterAt c t h0 x0 y0 k0 a0).1, j ∈ pc.1.set :=
  View.cover_of_tiledL (laterAt c t h0 x0 y0 k0 a0).1 S1x1024x1.size (by sl_kernel_rfl) j
theorem later_col_cover (c : Dev nD) (t : Fin cfg0.N) (h0 : ¬ t.val % 4 = 0) (x0 : Vec F S1x1024x3 .f32) (y0 : Vec F S1x4096x3 .f32)
    (k0 : Vec F S3x4096 .f32) (a0 : Vec F S1x4096x1 .f32) (j : S1x4096x1.Idx) :
    ∃ pc ∈ (laterAt c t h0 x0 y0 k0 a0).2.1, j ∈ pc.1.set :=
  View.cover_of_tiledL (laterAt c t h0 x0 y0 k0 a0).2.1 S1x4096x1.size (by sl_kernel_rfl) j

/-- What a first tile leaves in the row block, the column block and the scratch: its pieces read back. -/
def firstOuts (c : Dev nD) (t : Fin cfg0.N) (h0 : t.val % 4 = 0) (x0 : Vec F S1x1024x3 .f32) (y0 : Vec F S1x4096x3 .f32) :
    Vec F S1x1024x1 .f32 × Vec F S1x4096x1 .f32 × Vec F S3x4096 .f32 :=
  (rowV.read (Elt F) (rowV.writes (Elt F) rowV.junk (firstAt c t h0 x0 y0).1),
   colV.read (Elt F) (colV.writes (Elt F) colV.junk (firstAt c t h0 x0 y0).2.1),
   keyV.read (Elt F) (keyV.writes (Elt F) keyV.junk (firstAt c t h0 x0 y0).2.2.1))

/-- What a later tile leaves: its pieces read back in the two outputs, the scratch as it found it. -/
def laterOuts (c : Dev nD) (t : Fin cfg0.N) (h0 : ¬ t.val % 4 = 0) (x0 : Vec F S1x1024x3 .f32) (y0 : Vec F S1x4096x3 .f32)
    (k0 : Vec F S3x4096 .f32) (a0 : Vec F S1x4096x1 .f32) :
    Vec F S1x1024x1 .f32 × Vec F S1x4096x1 .f32 × Vec F S3x4096 .f32 :=
  (rowV.read (Elt F) (rowV.writes (Elt F) rowV.junk (laterAt c t h0 x0 y0 k0 a0).1),
   colV.read (Elt F) (colV.writes (Elt F) colV.junk (laterAt c t h0 x0 y0 k0 a0).2.1),
   k0)

/-! ## What the buffers hold after each point -/

/-- The row block, the column block and the scratch after the body at position `n`, by recursion on the position:
    a first tile from the point's two input blocks alone, a later tile also from the scratch and the column
    block the point before left. -/
def tileOuts (c : Dev nD) : (n : ℕ) → n < cfg0.N → Vec F S1x1024x1 .f32 × Vec F S1x4096x1 .f32 × Vec F S3x4096 .f32
  | 0, hn => firstOuts c ⟨0, hn⟩ (Nat.zero_mod 4) (iblk m c 0 ⟨0, hn⟩) (iblk m c 1 ⟨0, hn⟩)
  | n + 1, hn =>
    if h0 : (n + 1) % 4 = 0 then
      firstOuts c ⟨n + 1, hn⟩ h0 (iblk m c 0 ⟨n + 1, hn⟩) (iblk m c 1 ⟨n + 1, hn⟩)
    else
      laterOuts c ⟨n + 1, hn⟩ h0 (iblk m c 0 ⟨n + 1, hn⟩) (iblk m c 1 ⟨n + 1, hn⟩)
        (tileOuts c n (Nat.lt_of_succ_lt hn)).2.2 (tileOuts c n (Nat.lt_of_succ_lt hn)).2.1

theorem tileOuts_first (c : Dev nD) (t : Fin cfg0.N) (h0 : t.val % 4 = 0) :
    tileOuts m c t.val t.isLt = firstOuts c t h0 (iblk m c 0 t) (iblk m c 1 t) := by
  obtain ⟨n, hn⟩ := t
  cases n with
  | zero => exact rfl
  | succ n => exact (dif_pos h0).trans rfl

theorem tileOuts_later (c : Dev nD) (t : Fin cfg0.N) (h0 : ¬ t.val % 4 = 0) :
    tileOuts m c t.val t.isLt = laterOuts c t h0 (iblk m c 0 t) (iblk m c 1 t)
      (tileOuts m c (t.val - 1) (Nat.lt_of_le_of_lt (Nat.sub_le _ _) t.isLt)).2.2
      (tileOuts m c (t.val - 1) (Nat.lt_of_le_of_lt (Nat.sub_le _ _) t.isLt)).2.1 := by
  obtain ⟨n, hn⟩ := t
  cases n with
  | zero => exact (by exfalso; (try dsimp only at h0); exact absurd (Nat.zero_mod _) h0)
  | succ n => exact (dif_neg h0).trans rfl

/-! ## The region invariant, point by point -/

/-- Before position `n`: before the first point the class's invariant (the scratch at anything); afterwards the
    scratch at what the point before left in it, and the generator register at some state. -/
def scratchInv (c : Dev nD) : (n : ℕ) → n ≤ cfg0.N → sProp 𝕄
  | 0, _ => Pipeline.ΦA spec0 c
  | n + 1, hn => iprop(iprop(owns (c : Thread nD τ) keyM fullShare ((tileOuts m c n hn).2.2)) ∗ (∃ r, prngReg c r))

theorem scratchInv_zero (c : Dev nD) (n : ℕ) (h : n ≤ cfg0.N) (hz : n = 0) : scratchInv m c n h = Pipeline.ΦA spec0 c := by
  subst hz; rfl

theorem scratchInv_succ (c : Dev nD) (n : ℕ) (hn : n < cfg0.N) :
    scratchInv m c (n + 1) hn = iprop(iprop(owns (c : Thread nD τ) keyM fullShare ((tileOuts m c n hn).2.2)) ∗ (∃ r, prngReg c r)) := rfl

theorem scratchInv_pos (c : Dev nD) (n : ℕ) (h : n ≤ cfg0.N) (hz : n ≠ 0) :
    scratchInv m c n h = iprop(iprop(owns (c : Thread nD τ) keyM fullShare ((tileOuts m c (n - 1) (by omega)).2.2)) ∗ (∃ r, prngReg c r)) := by
  cases n with
  | zero => exact absurd rfl hz
  | succ n => rfl

/-! ## The pipeline's proof data -/

/-- The proof data on core `c`: the arrays as the region finds them; after the body at point `t` each input's
    buffer at its block, the row and column buffers at `tileOuts`; the invariant `scratchInv`; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (tileOuts m c t.val t.isLt).1
    | ⟨3, _⟩ => (tileOuts m c t.val t.isLt).2.1
  Φ t := scratchInv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = scratchInv m c t.val (Nat.le_of_lt t.isLt) := by
  dsimp only [dats]; simp only [Fin.coe_castSucc]

theorem after_x (c : Dev nD) (t : Fin cfg0.N) : (dats m 0 c).after 0 t = iblk m c 0 t := by dsimp only [dats]
theorem after_y (c : Dev nD) (t : Fin cfg0.N) : (dats m 0 c).after 1 t = iblk m c 1 t := by dsimp only [dats]
theorem after_row (c : Dev nD) (t : Fin cfg0.N) : (dats m 0 c).after 2 t = (tileOuts m c t.val t.isLt).1 := by dsimp only [dats]
theorem after_col (c : Dev nD) (t : Fin cfg0.N) : (dats m 0 c).after 3 t = (tileOuts m c t.val t.isLt).2.1 := by dsimp only [dats]

/-- Each input's current staging buffer holds its block at every point, fetched there or not. -/
theorem before_x (c : Dev nD) (t : Fin cfg0.N) (d) : (dats m 0 c).before 0 t d = iblk m c 0 t :=
  before0_0_of m (dats m 0 c) (A_eq m c 0) (after_x m c) t d
theorem before_y (c : Dev nD) (t : Fin cfg0.N) (d) : (dats m 0 c).before 1 t d = iblk m c 1 t :=
  before0_1_of m (dats m 0 c) (A_eq m c 1) (after_y m c) t d

/-- At a later tile the column buffer holds what the body left at the point before: the point is not the
    first, the block was not written back between (it is written back only after tile 3), the window is live
    and uncut. -/
theorem before_col_later (c : Dev nD) (t : Fin cfg0.N) (h0 : ¬ t.val % 4 = 0) (d) :
    (dats m 0 c).before 3 t d = (tileOuts m c (t.val - 1) (Nat.lt_of_le_of_lt (Nat.sub_le _ _) t.isLt)).2.1 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    live_col_all (fun _ _ => rfl)]
  dsimp only [dats]

/-- Every window is live at every point, so what the body leaves in its buffer is exactly `after`. -/
theorem leaves_x (c : Dev nD) (t : Fin cfg0.N) :
    (dats m 0 c).leavesExact 0 t = owns (c : Thread nD τ) (xM t) fullShare (iblk m c 0 t) := by
  unfold Dat.leavesExact; rw [live_x t, after_x]
theorem leaves_y (c : Dev nD) (t : Fin cfg0.N) :
    (dats m 0 c).leavesExact 1 t = owns (c : Thread nD τ) (yM t) fullShare (iblk m c 1 t) := by
  unfold Dat.leavesExact; rw [live_y t, after_y]
theorem leaves_row (c : Dev nD) (t : Fin cfg0.N) :
    (dats m 0 c).leavesExact 2 t = owns (c : Thread nD τ) (rowM t) fullShare (tileOuts m c t.val t.isLt).1 := by
  unfold Dat.leavesExact; rw [live_row t, after_row]
theorem leaves_col (c : Dev nD) (t : Fin cfg0.N) :
    (dats m 0 c).leavesExact 3 t = owns (c : Thread nD τ) (colM t) fullShare (tileOuts m c t.val t.isLt).2.1 := by
  unfold Dat.leavesExact; rw [live_col t, after_col]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (xM t) fullShare ((dats m 0 c).before 0 t d))
    ∗ (∃ d, owns (c : Thread nD τ) (yM t) fullShare ((dats m 0 c).before 1 t d))
    ∗ (∃ d, owns (c : Thread nD τ) (rowM t) fullShare ((dats m 0 c).before 2 t d))
    ∗ (∃ d, owns (c : Thread nD τ) (colM t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' memrefs hold their blocks; the tile number says which of the two runs
    applies. At a first tile the scratch and the column buffer may hold anything; at a later tile the invariant
    hands the scratch at what the point before left and the column buffer holds what the point before left. The
    invariant takes the scratch back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_y]
  rw [show (dats m 0 c).owesAt () t.succ = (dats m 0 c).owesAt () t.castSucc from rfl]
  rw [show (dats m 0 c).Φ t.succ = scratchInv m c (t.val + 1) t.isLt from rfl, scratchInv_succ]
  rw [leaves_x, leaves_y, leaves_row, leaves_col]
  have hN : t.val < 64 := lt_of_lt_of_eq t.isLt (show cfg0.N = 64 from N_0)
  by_cases h0 : t.val % 4 = 0
  · rw [tileOuts_first m c t h0]
    unfold firstOuts; (try dsimp only)
    have hpre : (dats m 0 c).Φ t.castSucc ⊢ iprop(iprop((∃ d, owns (c : Thread nD τ) keyM fullShare d)) ∗ (∃ r, prngReg c r)) := by
      by_cases hz : t.val = 0
      · rw [inv_castSucc m c t, scratchInv_zero m c _ _ hz, classInv_eq]
        try exact Idealize.SL.BI.Entails.refl _
      · rw [inv_castSucc m c t, scratchInv_pos m c _ _ hz]
        iintro ⟨HS, Hg⟩
        isplitl [HS]
        · iexists _; iexact HS
        iexact Hg
    iintro ⟨Hinv, Ho, ⟨%d0, H0⟩, ⟨%d1, H1⟩, ⟨%d2, H2⟩, ⟨%d3, H3⟩⟩
    ihave Hinv' := hpre $$ Hinv
    icases Hinv' with ⟨HS, Hg⟩
    iapply ((firstAt c t h0 (iblk m c 0 t) (iblk m c 1 t)).2.2.2 Set.univ _)
    isplitl [H0]; · iexact H0
    isplitl [H1]; · iexact H1
    isplitl [H2]; · iexists _; iexact H2
    isplitl [H3]; · iexists _; iexact H3
    isplitl [HS]; · iexact HS
    iintro ⟨H0, H1, ⟨%e2, H2⟩, ⟨%e3, H3⟩, ⟨%es, HS⟩⟩
    isplitl [HS Hg]
    · isplitl [HS]
      · unfold owns; iexists _; isplitr
        swap; · iexact HS
        ipureintro; exact View.read_writes_of_cover _ _ _ _ _ (first_key_cover c t h0 _ _)
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (first_row_cover c t h0 _ _)
    unfold owns; iexists _; isplitr
    swap; · iexact H3
    ipureintro; exact View.read_writes_of_cover _ _ _ _ _ (first_col_cover c t h0 _ _)
  · have hz : t.val ≠ 0 := fun hz => h0 (by rw [hz])
    simp only [before_col_later m c t h0]
    rw [tileOuts_later m c t h0]
    unfold laterOuts; (try dsimp only)
    rw [inv_castSucc m c t, scratchInv_pos m c _ _ hz]
    iintro ⟨⟨HS, Hg⟩, Ho, ⟨%d0, H0⟩, ⟨%d1, H1⟩, ⟨%d2, H2⟩, ⟨%d3, H3⟩⟩
    iapply ((laterAt c t h0 (iblk m c 0 t) (iblk m c 1 t) _ _).2.2 Set.univ _)
    isplitl [H0]; · iexact H0
    isplitl [H1]; · iexact H1
    isplitl [H2]; · iexists _; iexact H2
    isplitl [H3]; · iexact H3
    isplitl [HS]; · iexact HS
    iintro ⟨H0, H1, ⟨%e2, H2⟩, ⟨%e3, H3⟩, HS⟩
    isplitl [HS Hg]
    · isplitl [HS]; · iexact HS
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (later_row_cover c t h0 _ _ _ _)
    unfold owns; iexists _; isplitr
    swap; · iexact H3
    ipureintro; exact View.read_writes_of_cover _ _ _ _ _ (later_col_cover c t h0 _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = scratchInv m c 0 (Nat.zero_le _) from rfl, scratchInv_zero m c 0 _ rfl]
  try exact Idealize.SL.BI.Entails.refl _

/-- After the last point the invariant gives the class's back: the scratch's contents are forgotten. -/
theorem inv_out (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = scratchInv m c (Fin.last cfg0.N).val (Nat.le_of_lt_succ (Fin.last cfg0.N).isLt) from rfl,
    scratchInv_pos m c _ _ ht, classInv_eq]
  iintro ⟨HS, Hg⟩
  isplitl [HS]
  · iexists _; iexact HS
  iexact Hg

/-! ## The run and the frame -/

set_option backward.isDefEq.respectTransparency.types false in
/-- From any memory with zero counters every weakly fair execution of the program terminates, and every final
    state has every array of the pipeline at what the library computes from the proof data and every other
    unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The frame: the program runs to the end, faults nowhere, and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Tile

end
-- ==== Proof.WordTilePoints.lean ====
/-
  (The program as printed, read at machine words: the same text as for the idealized program, which differs from it
  in no operation.)
  The grid of the pairwise-distance kernel is 16 batches by 4 row tiles, walked batch by batch: point `t` is
  tile `t % 4` of batch `t / 4`. The body branches three times on the tile number alone:
    * at tile 0 it transposes the batch's key block (4096 by 3) into the 3 by 4096 scratch, which the later
      tiles of the batch read back;
    * at tile 0 it stores the tile's column minima into the resident column block;
    * at the later tiles it folds the tile's column minima into that block by an entrywise minimum.
  So there are two kinds of point, "first tile" (`t % 4 = 0`) and "later tile" (`t % 4 ≠ 0`). This module decides
  the three conditions over the 64 points, records that no window is ever idle, names the staging memrefs the
  pipeline passes at a point and the scratch, and spells the region invariant with the scratch as an owned memref.
-/
import proofs.«120201_j80212809220557_2_alg».proof.Proof.Gen.Kernel.Frame
import proofs.«120201_j80212809220557_2_alg».proof.Proof.Gen.Kernel.Skeleton

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions of the body, as propositions over the grid coordinates -/

/-- The tile number (second grid coordinate) is zero, as the body's first branch computes it. -/
abbrev keyTransposed (i : grid0.Coords) : Prop :=
  (Scalar.cmpi .ne (Scalar.extui (Scalar.cmpi .eq (BitVec.ofNat 32 (i 1).val) 0#32)) 0#32) = 1#1
/-- The branch that stores the column minima afresh. -/
abbrev colReset (i : grid0.Coords) : Prop := k0_cond2 i = 1#1
/-- The branch that folds the column minima into what the batch's earlier tiles left. -/
abbrev colFolded (i : grid0.Coords) : Prop := k0_cond3 i = 1#1

/-- The first branch is taken exactly at tile 0 of each batch. -/
theorem keyTransposed_iff : ∀ t : Fin cfg0.N, keyTransposed (grid0.coords t) ↔ t.val % 4 = 0 :=
  (by decide +kernel : ∀ t : Fin grid0.N, keyTransposed (grid0.coords t) ↔ t.val % 4 = 0)
/-- So is the second. -/
theorem colReset_iff : ∀ t : Fin cfg0.N, colReset (grid0.coords t) ↔ t.val % 4 = 0 :=
  (by decide +kernel : ∀ t : Fin grid0.N, colReset (grid0.coords t) ↔ t.val % 4 = 0)
/-- The third is taken exactly at the other tiles. -/
theorem colFolded_iff : ∀ t : Fin cfg0.N, colFolded (grid0.coords t) ↔ ¬ t.val % 4 = 0 :=
  (by decide +kernel : ∀ t : Fin grid0.N, colFolded (grid0.coords t) ↔ ¬ t.val % 4 = 0)

/-! ## No window is idle anywhere: every point stores into both outputs -/

theorem live_x : ∀ t : Fin cfg0.N, cfg0.idle 0 (grid0.coords t) = false := by decide +kernel
theorem live_y : ∀ t : Fin cfg0.N, cfg0.idle 1 (grid0.coords t) = false := by decide +kernel
theorem live_row : ∀ t : Fin cfg0.N, cfg0.idle 2 (grid0.coords t) = false := by decide +kernel
theorem live_col : ∀ t : Fin cfg0.N, cfg0.idle 3 (grid0.coords t) = false := by decide +kernel
/-- The column block is live at every coordinate pair, on the grid or not (one of the two column branches is
    always taken). -/
theorem live_col_all : ∀ i : grid0.Coords, cfg0.idle 3 i = false := by decide +kernel

/-! ## The memrefs the body is called with at a point -/

abbrev xM (t : Fin cfg0.N) : Memref sig .tc .vmem S1x1024x3 .f32 := win0_0.stage (cfg0.slots t 0)
abbrev hxM (t : Fin cfg0.N) : (xM t).IsWhole := hstage0_0 ((cfg0.slots t 0).cast nbuf0_0)
abbrev yM (t : Fin cfg0.N) : Memref sig .tc .vmem S1x4096x3 .f32 := win0_1.stage (cfg0.slots t 1)
abbrev hyM (t : Fin cfg0.N) : (yM t).IsWhole := hstage0_1 ((cfg0.slots t 1).cast nbuf0_1)
abbrev rowM (t : Fin cfg0.N) : Memref sig .tc .vmem S1x1024x1 .f32 := win0_2.stage (cfg0.slots t 2)
abbrev hrowM (t : Fin cfg0.N) : (rowM t).IsWhole := hstage0_2 ((cfg0.slots t 2).cast nbuf0_2)
abbrev colM (t : Fin cfg0.N) : Memref sig .tc .vmem S1x4096x1 .f32 := win0_3.stage (cfg0.slots t 3)
abbrev hcolM (t : Fin cfg0.N) : (colM t).IsWhole := hstage0_3 ((cfg0.slots t 3).cast nbuf0_3)
/-- The scratch that holds the transposed key block: a whole scoped buffer of the kernel's own. -/
abbrev keyM : Memref sig .tc .vmem S3x4096 .f32 := Memref.whole cc0_scratch0

/-- One staging buffer of each output window and the scratch, as views through which contents are stated. -/
abbrev rowV : View sig .tc .vmem S1x1024x1 .f32 := (Memref.whole cc0_stg2_0 : Memref sig .tc .vmem S1x1024x1 .f32).view
abbrev colV : View sig .tc .vmem S1x4096x1 .f32 := (Memref.whole cc0_stg3_0 : Memref sig .tc .vmem S1x4096x1 .f32).view
abbrev keyV : View sig .tc .vmem S3x4096 .f32 := keyM.view

/-- The region's class invariant with the scratch as a memref owned at some contents. -/
theorem classInv_eq (c : Dev nD) :
    (Pipeline.ΦA spec0 c : sProp 𝕄)
      = iprop(iprop((∃ d, owns (c : Thread nD τ) keyM fullShare d)) ∗ (∃ r, prngReg c r)) := by
  unfold Pipeline.ΦA; rw [scopedRest0_eq]; simp only [keyM, owns_whole]; try rfl

end Cert.Kernel.Tile

end
-- ==== Proof.WordFirstTile.lean ====
/-
  (The program as printed, read at machine words: the same text as for the idealized program, which differs from it
  in no operation.)
  The body at the first tile of a batch (tile number 0), run whole: it transposes the key block into the scratch
  (whatever the scratch held), loads the query tile and the scratch back, stores the tile's row minima, and
  stores the tile's column minima afresh into the column block (whatever that held). The run hands the two
  inputs back as they were and each written buffer with the pieces written into it; the pieces are found by
  the run itself.
-/
import proofs.«120201_j80212809220557_2_alg».proof.Proof.WordTilePoints

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the row block, the column block and the scratch at a first tile, with the
    proof that from whole memrefs — the inputs at `x0`, `y0`, the two outputs and the scratch at anything — it
    runs to the continuation holding the inputs as they were and each other buffer with its pieces written. -/
noncomputable def runFirst (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x4096x1 .f32) (harg5 : arg5.IsWhole) (arg6 : Memref sig .tc .vmem S3x4096 .f32) (harg6 : arg6.IsWhole) (h1 : keyTransposed i) (h2 : colReset i) (h3 : ¬ colFolded i)
    (x0 : Vec F S1x1024x3 .f32) (y0 : Vec F S1x4096x3 .f32) :
    Σ' (Lrow : List (View.Piece (Elt F) S1x1024x1 .f32)) (Lcol : List (View.Piece (Elt F) S1x4096x1 .f32)), { Lkey : List (View.Piece (Elt F) S3x4096 .f32) //
      ∀ (E : Set ℕ) (K : PUnit → sProp 𝕄),
        iprop(owns (c : Thread nD τ) arg2 fullShare x0 ∗ owns (c : Thread nD τ) arg3 fullShare y0 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare y0 ∗ (∃ f, arg4.view.loc (c : Thread nD τ) ↦[arg4.view.set]{fullShare} arg4.view.writes (Elt F) f Lrow) ∗ (∃ f, arg5.view.loc (c : Thread nD τ) ↦[arg5.view.set]{fullShare} arg5.view.writes (Elt F) f Lcol) ∗ (∃ f, arg6.view.loc (c : Thread nD τ) ↦[arg6.view.set]{fullShare} arg6.view.writes (Elt F) f Lkey)) -∗ K ⟨⟩))
          ⊢ wp frame (wpE (defs₀ (F := F)) Variants.none c none) E (cc0__chamfer_kernel i arg2 harg2 arg3 harg3 arg4 harg4 arg5 harg5 arg6 harg6) K } := by
  refine ⟨?_, ?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%ds, %fs, -, HS⟩, Hk⟩
    obtain rfl := harg2.eq_unread hf0; obtain rfl := harg3.eq_unread hf1
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.Kernel.Tile

end
-- ==== Proof.WordLaterTile.lean ====
/-
  (The program as printed, read at machine words: the same text as for the idealized program, which differs from it
  in no operation.)
  The body at a later tile of a batch (tile number 1, 2 or 3), run whole: the scratch already holds the batch's
  transposed key block and is only read; the body stores the tile's row minima and folds the tile's column
  minima into the column block, which holds what the batch's earlier tiles left. The run hands the two inputs
  and the scratch back as they were and each output buffer with the pieces written into it.
-/
import proofs.«120201_j80212809220557_2_alg».proof.Proof.WordFirstTile

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the row block and the column block at a later tile, with the proof that from
    whole memrefs — the inputs at `x0`, `y0`, the scratch at `k0`, the column block at `a0`, the row block at
    anything — it runs to the continuation holding the inputs and the scratch as they were and each output
    buffer with its pieces written. -/
noncomputable def runLater (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x4096x1 .f32) (harg5 : arg5.IsWhole) (arg6 : Memref sig .tc .vmem S3x4096 .f32) (harg6 : arg6.IsWhole) (h1 : ¬ keyTransposed i) (h2 : ¬ colReset i) (h3 : colFolded i)
    (x0 : Vec F S1x1024x3 .f32) (y0 : Vec F S1x4096x3 .f32) (k0 : Vec F S3x4096 .f32) (a0 : Vec F S1x4096x1 .f32) :
    Σ' (Lrow : List (View.Piece (Elt F) S1x1024x1 .f32)), { Lcol : List (View.Piece (Elt F) S1x4096x1 .f32) //
      ∀ (E : Set ℕ) (K : PUnit → sProp 𝕄),
        iprop(owns (c : Thread nD τ) arg2 fullShare x0 ∗ owns (c : Thread nD τ) arg3 fullShare y0 ∗ (∃ d, owns (c : Thread nD τ) arg4 fullShare d) ∗ owns (c : Thread nD τ) arg5 fullShare a0 ∗ owns (c : Thread nD τ) arg6 fullShare k0
            ∗ (iprop(owns (c : Thread nD τ) arg2 fullShare x0 ∗ owns (c : Thread nD τ) arg3 fullShare y0 ∗ (∃ f, arg4.view.loc (c : Thread nD τ) ↦[arg4.view.set]{fullShare} arg4.view.writes (Elt F) f Lrow) ∗ (∃ f, arg5.view.loc (c : Thread nD τ) ↦[arg5.view.set]{fullShare} arg5.view.writes (Elt F) f Lcol) ∗ owns (c : Thread nD τ) arg6 fullShare k0) -∗ K ⟨⟩))
          ⊢ wp frame (wpE (defs₀ (F := F)) Variants.none c none) E (cc0__chamfer_kernel i arg2 harg2 arg3 harg3 arg4 harg4 arg5 harg5 arg6 harg6) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, ⟨%fs, %hfs, HS⟩, Hk⟩
    obtain rfl := harg2.eq_unread hf0; obtain rfl := harg3.eq_unread hf1
    obtain rfl := harg5.eq_unread hf3; obtain rfl := harg6.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; isplitr; · ipureintro; exact harg6.read_unread _
    iexact HS

end Cert.Kernel.Tile

end
-- ==== Proof.WordTileFrame.lean ====
/-
  (The program as printed, read at machine words: the same text as for the idealized program, which differs from it
  in no operation.)
  The frame of the pairwise-distance kernel: every weakly fair execution of the program terminates without a
  fault and leaves the two argument arrays as they were.

  What the buffers hold is followed point by point. After point `t` (tile `t % 4` of batch `t / 4`):
    * the row block holds what the body stored there at `t` (every point stores it whole);
    * the column block holds, at tile 0, what the body stored afresh, and at a later tile the fold of the
      tile's contribution into what the point before left (the block is not written back inside a batch);
    * the scratch holds, at tile 0, the transposed key block the body stored, and at a later tile what the
      point before left (the body only reads it there).
  The region invariant carries the scratch at exactly these contents between points, so that a later tile
  finds the key block its batch's first tile transposed.
-/
import proofs.«120201_j80212809220557_2_alg».proof.Proof.WordLaterTile

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One point's run, at the memrefs the pipeline passes there -/

/-- The first-tile run at point `t`. -/
abbrev firstAt (c : Dev nD) (t : Fin cfg0.N) (h0 : t.val % 4 = 0) (x0 : Vec F S1x1024x3 .f32) (y0 : Vec F S1x4096x3 .f32) :=
  runFirst (F := F) c (grid0.coords t) (xM t) (hxM t) (yM t) (hyM t) (rowM t) (hrowM t) (colM t) (hcolM t) keyM (Memref.isWhole_whole _)
    ((keyTransposed_iff t).mpr h0) ((colReset_iff t).mpr h0) (fun h => (colFolded_iff t).mp h h0) x0 y0

/-- The later-tile run at point `t`. -/
abbrev laterAt (c : Dev nD) (t : Fin cfg0.N) (h0 : ¬ t.val % 4 = 0) (x0 : Vec F S1x1024x3 .f32) (y0 : Vec F S1x4096x3 .f32)
    (k0 : Vec F S3x4096 .f32) (a0 : Vec F S1x4096x1 .f32) :=
  runLater (F := F) c (grid0.coords t) (xM t) (hxM t) (yM t) (hyM t) (rowM t) (hrowM t) (colM t) (hcolM t) keyM (Memref.isWhole_whole _)
    (fun h => h0 ((keyTransposed_iff t).mp h)) (fun h => h0 ((colReset_iff t).mp h)) ((colFolded_iff t).mpr h0) x0 y0 k0 a0

/-- The pieces a first tile writes cover the row block, the column block and the scratch (each is one whole store). -/
theorem first_row_cover (c : Dev nD) (t : Fin cfg0.N) (h0 : t.val % 4 = 0) (x0 : Vec F S1x1024x3 .f32) (y0 : Vec F S1x4096x3 .f32) (j : S1x1024x1.Idx) :
    ∃ pc ∈ (firstAt c t h0 x0 y0).1, j ∈ pc.1.set :=
  View.cover_of_tiledL (firstAt c t h0 x0 y0).1 S1x1024x1.size (by sl_kernel_rfl) j
theorem first_col_cover (c : Dev nD) (t : Fin cfg0.N) (h0 : t.val % 4 = 0) (x0 : Vec F S1x1024x3 .f32) (y0 : Vec F S1x4096x3 .f32) (j : S1x4096x1.Idx) :
    ∃ pc ∈ (firstAt c t h0 x0 y0).2.1, j ∈ pc.1.set :=
  View.cover_of_tiledL (firstAt c t h0 x0 y0).2.1 S1x4096x1.size (by sl_kernel_rfl) j
theorem first_key_cover (c : Dev nD) (t : Fin cfg0.N) (h0 : t.val % 4 = 0) (x0 : Vec F S1x1024x3 .f32) (y0 : Vec F S1x4096x3 .f32) (j : S3x4096.Idx) :
    ∃ pc ∈ (firstAt c t h0 x0 y0).2.2.1, j ∈ pc.1.set :=
  View.cover_of_tiledL (firstAt c t h0 x0 y0).2.2.1 S3x4096.size (by sl_kernel_rfl) j
/-- The pieces a later tile writes cover the row block and the column block. -/
theorem later_row_cover (c : Dev nD) (t : Fin cfg0.N) (h0 : ¬ t.val % 4 = 0) (x0 : Vec F S1x1024x3 .f32) (y0 : Vec F S1x4096x3 .f32)
    (k0 : Vec F S3x4096 .f32) (a0 : Vec F S1x4096x1 .f32) (j : S1x1024x1.Idx) :
    ∃ pc ∈ (laterAt c t h0 x0 y0 k0 a0).1, j ∈ pc.1.set :=
  View.cover_of_tiledL (laterAt c t h0 x0 y0 k0 a0).1 S1x1024x1.size (by sl_kernel_rfl) j
theorem later_col_cover (c : Dev nD) (t : Fin cfg0.N) (h0 : ¬ t.val % 4 = 0) (x0 : Vec F S1x1024x3 .f32) (y0 : Vec F S1x4096x3 .f32)
    (k0 : Vec F S3x4096 .f32) (a0 : Vec F S1x4096x1 .f32) (j : S1x4096x1.Idx) :
    ∃ pc ∈ (laterAt c t h0 x0 y0 k0 a0).2.1, j ∈ pc.1.set :=
  View.cover_of_tiledL (laterAt c t h0 x0 y0 k0 a0).2.1 S1x4096x1.size (by sl_kernel_rfl) j

/-- What a first tile leaves in the row block, the column block and the scratch: its pieces read back. -/
def firstOuts (c : Dev nD) (t : Fin cfg0.N) (h0 : t.val % 4 = 0) (x0 : Vec F S1x1024x3 .f32) (y0 : Vec F S1x4096x3 .f32) :
    Vec F S1x1024x1 .f32 × Vec F S1x4096x1 .f32 × Vec F S3x4096 .f32 :=
  (rowV.read (Elt F) (rowV.writes (Elt F) rowV.junk (firstAt c t h0 x0 y0).1),
   colV.read (Elt F) (colV.writes (Elt F) colV.junk (firstAt c t h0 x0 y0).2.1),
   keyV.read (Elt F) (keyV.writes (Elt F) keyV.junk (firstAt c t h0 x0 y0).2.2.1))

/-- What a later tile leaves: its pieces read back in the two outputs, the scratch as it found it. -/
def laterOuts (c : Dev nD) (t : Fin cfg0.N) (h0 : ¬ t.val % 4 = 0) (x0 : Vec F S1x1024x3 .f32) (y0 : Vec F S1x4096x3 .f32)
    (k0 : Vec F S3x4096 .f32) (a0 : Vec F S1x4096x1 .f32) :
    Vec F S1x1024x1 .f32 × Vec F S1x4096x1 .f32 × Vec F S3x4096 .f32 :=
  (rowV.read (Elt F) (rowV.writes (Elt F) rowV.junk (laterAt c t h0 x0 y0 k0 a0).1),
   colV.read (Elt F) (colV.writes (Elt F) colV.junk (laterAt c t h0 x0 y0 k0 a0).2.1),
   k0)

/-! ## What the buffers hold after each point -/

/-- The row block, the column block and the scratch after the body at position `n`, by recursion on the position:
    a first tile from the point's two input blocks alone, a later tile also from the scratch and the column
    block the point before left. -/
def tileOuts (c : Dev nD) : (n : ℕ) → n < cfg0.N → Vec F S1x1024x1 .f32 × Vec F S1x4096x1 .f32 × Vec F S3x4096 .f32
  | 0, hn => firstOuts c ⟨0, hn⟩ (Nat.zero_mod 4) (iblk m c 0 ⟨0, hn⟩) (iblk m c 1 ⟨0, hn⟩)
  | n + 1, hn =>
    if h0 : (n + 1) % 4 = 0 then
      firstOuts c ⟨n + 1, hn⟩ h0 (iblk m c 0 ⟨n + 1, hn⟩) (iblk m c 1 ⟨n + 1, hn⟩)
    else
      laterOuts c ⟨n + 1, hn⟩ h0 (iblk m c 0 ⟨n + 1, hn⟩) (iblk m c 1 ⟨n + 1, hn⟩)
        (tileOuts c n (Nat.lt_of_succ_lt hn)).2.2 (tileOuts c n (Nat.lt_of_succ_lt hn)).2.1

theorem tileOuts_first (c : Dev nD) (t : Fin cfg0.N) (h0 : t.val % 4 = 0) :
    tileOuts m c t.val t.isLt = firstOuts c t h0 (iblk m c 0 t) (iblk m c 1 t) := by
  obtain ⟨n, hn⟩ := t
  cases n with
  | zero => exact rfl
  | succ n => exact (dif_pos h0).trans rfl

theorem tileOuts_later (c : Dev nD) (t : Fin cfg0.N) (h0 : ¬ t.val % 4 = 0) :
    tileOuts m c t.val t.isLt = laterOuts c t h0 (iblk m c 0 t) (iblk m c 1 t)
      (tileOuts m c (t.val - 1) (Nat.lt_of_le_of_lt (Nat.sub_le _ _) t.isLt)).2.2
      (tileOuts m c (t.val - 1) (Nat.lt_of_le_of_lt (Nat.sub_le _ _) t.isLt)).2.1 := by
  obtain ⟨n, hn⟩ := t
  cases n with
  | zero => exact (by exfalso; (try dsimp only at h0); exact absurd (Nat.zero_mod _) h0)
  | succ n => exact (dif_neg h0).trans rfl

/-! ## The region invariant, point by point -/

/-- Before position `n`: before the first point the class's invariant (the scratch at anything); afterwards the
    scratch at what the point before left in it, and the generator register at some state. -/
def scratchInv (c : Dev nD) : (n : ℕ) → n ≤ cfg0.N → sProp 𝕄
  | 0, _ => Pipeline.ΦA spec0 c
  | n + 1, hn => iprop(iprop(owns (c : Thread nD τ) keyM fullShare ((tileOuts m c n hn).2.2)) ∗ (∃ r, prngReg c r))

theorem scratchInv_zero (c : Dev nD) (n : ℕ) (h : n ≤ cfg0.N) (hz : n = 0) : scratchInv m c n h = Pipeline.ΦA spec0 c := by
  subst hz; rfl

theorem scratchInv_succ (c : Dev nD) (n : ℕ) (hn : n < cfg0.N) :
    scratchInv m c (n + 1) hn = iprop(iprop(owns (c : Thread nD τ) keyM fullShare ((tileOuts m c n hn).2.2)) ∗ (∃ r, prngReg c r)) := rfl

theorem scratchInv_pos (c : Dev nD) (n : ℕ) (h : n ≤ cfg0.N) (hz : n ≠ 0) :
    scratchInv m c n h = iprop(iprop(owns (c : Thread nD τ) keyM fullShare ((tileOuts m c (n - 1) (by omega)).2.2)) ∗ (∃ r, prngReg c r)) := by
  cases n with
  | zero => exact absurd rfl hz
  | succ n => rfl

/-! ## The pipeline's proof data -/

/-- The proof data on core `c`: the arrays as the region finds them; after the body at point `t` each input's
    buffer at its block, the row and column buffers at `tileOuts`; the invariant `scratchInv`; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (tileOuts m c t.val t.isLt).1
    | ⟨3, _⟩ => (tileOuts m c t.val t.isLt).2.1
  Φ t := scratchInv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = scratchInv m c t.val (Nat.le_of_lt t.isLt) := by
  dsimp only [dats]; simp only [Fin.coe_castSucc]

theorem after_x (c : Dev nD) (t : Fin cfg0.N) : (dats m 0 c).after 0 t = iblk m c 0 t := by dsimp only [dats]
theorem after_y (c : Dev nD) (t : Fin cfg0.N) : (dats m 0 c).after 1 t = iblk m c 1 t := by dsimp only [dats]
theorem after_row (c : Dev nD) (t : Fin cfg0.N) : (dats m 0 c).after 2 t = (tileOuts m c t.val t.isLt).1 := by dsimp only [dats]
theorem after_col (c : Dev nD) (t : Fin cfg0.N) : (dats m 0 c).after 3 t = (tileOuts m c t.val t.isLt).2.1 := by dsimp only [dats]

/-- Each input's current staging buffer holds its block at every point, fetched there or not. -/
theorem before_x (c : Dev nD) (t : Fin cfg0.N) (d) : (dats m 0 c).before 0 t d = iblk m c 0 t :=
  before0_0_of m (dats m 0 c) (A_eq m c 0) (after_x m c) t d
theorem before_y (c : Dev nD) (t : Fin cfg0.N) (d) : (dats m 0 c).before 1 t d = iblk m c 1 t :=
  before0_1_of m (dats m 0 c) (A_eq m c 1) (after_y m c) t d

/-- At a later tile the column buffer holds what the body left at the point before: the point is not the
    first, the block was not written back between (it is written back only after tile 3), the window is live
    and uncut. -/
theorem before_col_later (c : Dev nD) (t : Fin cfg0.N) (h0 : ¬ t.val % 4 = 0) (d) :
    (dats m 0 c).before 3 t d = (tileOuts m c (t.val - 1) (Nat.lt_of_le_of_lt (Nat.sub_le _ _) t.isLt)).2.1 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    live_col_all (fun _ _ => rfl)]
  dsimp only [dats]

/-- Every window is live at every point, so what the body leaves in its buffer is exactly `after`. -/
theorem leaves_x (c : Dev nD) (t : Fin cfg0.N) :
    (dats m 0 c).leavesExact 0 t = owns (c : Thread nD τ) (xM t) fullShare (iblk m c 0 t) := by
  unfold Dat.leavesExact; rw [live_x t, after_x]
theorem leaves_y (c : Dev nD) (t : Fin cfg0.N) :
    (dats m 0 c).leavesExact 1 t = owns (c : Thread nD τ) (yM t) fullShare (iblk m c 1 t) := by
  unfold Dat.leavesExact; rw [live_y t, after_y]
theorem leaves_row (c : Dev nD) (t : Fin cfg0.N) :
    (dats m 0 c).leavesExact 2 t = owns (c : Thread nD τ) (rowM t) fullShare (tileOuts m c t.val t.isLt).1 := by
  unfold Dat.leavesExact; rw [live_row t, after_row]
theorem leaves_col (c : Dev nD) (t : Fin cfg0.N) :
    (dats m 0 c).leavesExact 3 t = owns (c : Thread nD τ) (colM t) fullShare (tileOuts m c t.val t.isLt).2.1 := by
  unfold Dat.leavesExact; rw [live_col t, after_col]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (xM t) fullShare ((dats m 0 c).before 0 t d))
    ∗ (∃ d, owns (c : Thread nD τ) (yM t) fullShare ((dats m 0 c).before 1 t d))
    ∗ (∃ d, owns (c : Thread nD τ) (rowM t) fullShare ((dats m 0 c).before 2 t d))
    ∗ (∃ d, owns (c : Thread nD τ) (colM t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' memrefs hold their blocks; the tile number says which of the two runs
    applies. At a first tile the scratch and the column buffer may hold anything; at a later tile the invariant
    hands the scratch at what the point before left and the column buffer holds what the point before left. The
    invariant takes the scratch back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_y]
  rw [show (dats m 0 c).owesAt () t.succ = (dats m 0 c).owesAt () t.castSucc from rfl]
  rw [show (dats m 0 c).Φ t.succ = scratchInv m c (t.val + 1) t.isLt from rfl, scratchInv_succ]
  rw [leaves_x, leaves_y, leaves_row, leaves_col]
  have hN : t.val < 64 := lt_of_lt_of_eq t.isLt (show cfg0.N = 64 from N_0)
  by_cases h0 : t.val % 4 = 0
  · rw [tileOuts_first m c t h0]
    unfold firstOuts; (try dsimp only)
    have hpre : (dats m 0 c).Φ t.castSucc ⊢ iprop(iprop((∃ d, owns (c : Thread nD τ) keyM fullShare d)) ∗ (∃ r, prngReg c r)) := by
      by_cases hz : t.val = 0
      · rw [inv_castSucc m c t, scratchInv_zero m c _ _ hz, classInv_eq]
        try exact Idealize.SL.BI.Entails.refl _
      · rw [inv_castSucc m c t, scratchInv_pos m c _ _ hz]
        iintro ⟨HS, Hg⟩
        isplitl [HS]
        · iexists _; iexact HS
        iexact Hg
    iintro ⟨Hinv, Ho, ⟨%d0, H0⟩, ⟨%d1, H1⟩, ⟨%d2, H2⟩, ⟨%d3, H3⟩⟩
    ihave Hinv' := hpre $$ Hinv
    icases Hinv' with ⟨HS, Hg⟩
    iapply ((firstAt c t h0 (iblk m c 0 t) (iblk m c 1 t)).2.2.2 Set.univ _)
    isplitl [H0]; · iexact H0
    isplitl [H1]; · iexact H1
    isplitl [H2]; · iexists _; iexact H2
    isplitl [H3]; · iexists _; iexact H3
    isplitl [HS]; · iexact HS
    iintro ⟨H0, H1, ⟨%e2, H2⟩, ⟨%e3, H3⟩, ⟨%es, HS⟩⟩
    isplitl [HS Hg]
    · isplitl [HS]
      · unfold owns; iexists _; isplitr
        swap; · iexact HS
        ipureintro; exact View.read_writes_of_cover _ _ _ _ _ (first_key_cover c t h0 _ _)
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (first_row_cover c t h0 _ _)
    unfold owns; iexists _; isplitr
    swap; · iexact H3
    ipureintro; exact View.read_writes_of_cover _ _ _ _ _ (first_col_cover c t h0 _ _)
  · have hz : t.val ≠ 0 := fun hz => h0 (by rw [hz])
    simp only [before_col_later m c t h0]
    rw [tileOuts_later m c t h0]
    unfold laterOuts; (try dsimp only)
    rw [inv_castSucc m c t, scratchInv_pos m c _ _ hz]
    iintro ⟨⟨HS, Hg⟩, Ho, ⟨%d0, H0⟩, ⟨%d1, H1⟩, ⟨%d2, H2⟩, ⟨%d3, H3⟩⟩
    iapply ((laterAt c t h0 (iblk m c 0 t) (iblk m c 1 t) _ _).2.2 Set.univ _)
    isplitl [H0]; · iexact H0
    isplitl [H1]; · iexact H1
    isplitl [H2]; · iexists _; iexact H2
    isplitl [H3]; · iexact H3
    isplitl [HS]; · iexact HS
    iintro ⟨H0, H1, ⟨%e2, H2⟩, ⟨%e3, H3⟩, HS⟩
    isplitl [HS Hg]
    · isplitl [HS]; · iexact HS
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (later_row_cover c t h0 _ _ _ _)
    unfold owns; iexists _; isplitr
    swap; · iexact H3
    ipureintro; exact View.read_writes_of_cover _ _ _ _ _ (later_col_cover c t h0 _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = scratchInv m c 0 (Nat.zero_le _) from rfl, scratchInv_zero m c 0 _ rfl]
  try exact Idealize.SL.BI.Entails.refl _

/-- After the last point the invariant gives the class's back: the scratch's contents are forgotten. -/
theorem inv_out (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = scratchInv m c (Fin.last cfg0.N).val (Nat.le_of_lt_succ (Fin.last cfg0.N).isLt) from rfl,
    scratchInv_pos m c _ _ ht, classInv_eq]
  iintro ⟨HS, Hg⟩
  isplitl [HS]
  · iexists _; iexact HS
  iexact Hg

/-! ## The run and the frame -/

set_option backward.isDefEq.respectTransparency.types false in
/-- From any memory with zero counters every weakly fair execution of the program terminates, and every final
    state has every array of the pipeline at what the library computes from the proof data and every other
    unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The frame: the program runs to the end, faults nowhere, and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Tile

end
-- ==== Proof.TileValues.lean ====
/-
  What one point leaves in the row block, the column block and the scratch, as the body's own arithmetic of what
  it loaded. Every store of the body covers its buffer whole, so a buffer's contents after the point are the
  stored vector itself:
    * a first tile leaves the transposed key block in the scratch, and the row and column minima computed from
      the query tile and that transposed block (which the body reads back from the scratch);
    * a later tile computes them from the query tile and the scratch as it found it, and folds the column minima
      into the column block as it found it by an entrywise minimum.
-/
import proofs.«120201_j80212809220557_2_alg».proof.Proof.TileFrame
import Idealize.ShloMosaic.Lib.Pipeline.Value

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero3 : (![0, 0, 0] : Fin 3 → Nat) = fun _ => 0 := funext fun a => by fin_cases a <;> rfl
theorem zero2 : (![0, 0] : Fin 2 → Nat) = fun _ => 0 := funext fun a => by fin_cases a <;> rfl

/-- A first tile leaves the key block transposed in the scratch. -/
theorem first_key (c : Dev nD) (t : Fin cfg0.N) (h0 : t.val % 4 = 0) (x0 : Vec F S1x1024x3 .f32) (y0 : Vec F S1x4096x3 .f32) :
    (firstOuts c t h0 x0 y0).2.2 = k0_pay1 y0 := by
  unfold firstOuts; dsimp only
  rw [View.read_writes_eq_canon _ _ _ (first_key_cover c t h0 x0 y0)]
  unfold firstAt runFirst
  dsimp only
  sl_unfold_words
  rw [View.canon_unit_zero zero2]
  simp only [View.readAt_eq_ld, (hyM t).read_unread, View.ld_unit_zero (S := S1x4096x3) zero3]

/-- A first tile leaves the row minima of the query tile against the transposed key block. -/
theorem first_row (c : Dev nD) (t : Fin cfg0.N) (h0 : t.val % 4 = 0) (x0 : Vec F S1x1024x3 .f32) (y0 : Vec F S1x4096x3 .f32) :
    (firstOuts c t h0 x0 y0).1 = k0_pay3 x0 (k0_pay1 y0) := by
  unfold firstOuts; dsimp only
  rw [View.read_writes_eq_canon _ _ _ (first_row_cover c t h0 x0 y0)]
  unfold firstAt runFirst
  dsimp only
  sl_unfold_words
  rw [View.canon_unit_zero zero3, View.readCov_unit_zero (S := S3x4096) _ zero2]
  simp only [View.readAt_eq_ld, (hxM t).read_unread, (hyM t).read_unread, View.ld_unit_zero (S := S1x4096x3) zero3,
    View.ld_unit_zero (S := S1x1024x3) zero3]

/-- A first tile leaves the column minima of the query tile against the transposed key block. -/
theorem first_col (c : Dev nD) (t : Fin cfg0.N) (h0 : t.val % 4 = 0) (x0 : Vec F S1x1024x3 .f32) (y0 : Vec F S1x4096x3 .f32) :
    (firstOuts c t h0 x0 y0).2.1 = k0_pay5 x0 (k0_pay1 y0) := by
  unfold firstOuts; dsimp only
  rw [View.read_writes_eq_canon _ _ _ (first_col_cover c t h0 x0 y0)]
  unfold firstAt runFirst
  dsimp only
  sl_unfold_words
  rw [View.canon_unit_zero zero3, View.readCov_unit_zero (S := S3x4096) _ zero2]
  simp only [View.readAt_eq_ld, (hxM t).read_unread, (hyM t).read_unread, View.ld_unit_zero (S := S1x4096x3) zero3,
    View.ld_unit_zero (S := S1x1024x3) zero3]

/-- A later tile leaves the row minima of the query tile against the scratch as found. -/
theorem later_row (c : Dev nD) (t : Fin cfg0.N) (h0 : ¬ t.val % 4 = 0) (x0 : Vec F S1x1024x3 .f32) (y0 : Vec F S1x4096x3 .f32)
    (k0 : Vec F S3x4096 .f32) (a0 : Vec F S1x4096x1 .f32) :
    (laterOuts c t h0 x0 y0 k0 a0).1 = k0_pay3 x0 k0 := by
  unfold laterOuts; dsimp only
  rw [View.read_writes_eq_canon _ _ _ (later_row_cover c t h0 x0 y0 k0 a0)]
  unfold laterAt runLater
  dsimp only
  sl_unfold_words
  rw [View.canon_unit_zero zero3]
  simp only [View.readAt_eq_ld, (hxM t).read_unread, (Memref.isWhole_whole cc0_scratch0).read_unread,
    View.ld_unit_zero (S := S1x1024x3) zero3, View.ld_unit_zero (S := S3x4096) zero2]

/-- A later tile folds its column minima into the column block as found. -/
theorem later_col (c : Dev nD) (t : Fin cfg0.N) (h0 : ¬ t.val % 4 = 0) (x0 : Vec F S1x1024x3 .f32) (y0 : Vec F S1x4096x3 .f32)
    (k0 : Vec F S3x4096 .f32) (a0 : Vec F S1x4096x1 .f32) :
    (laterOuts c t h0 x0 y0 k0 a0).2.1 = k0_pay6 x0 k0 a0 := by
  unfold laterOuts; dsimp only
  rw [View.read_writes_eq_canon _ _ _ (later_col_cover c t h0 x0 y0 k0 a0)]
  unfold laterAt runLater
  dsimp only
  sl_unfold_words
  rw [View.canon_unit_zero zero3]
  simp only [View.readAt_eq_ld, (hxM t).read_unread, (hcolM t).read_unread, (Memref.isWhole_whole cc0_scratch0).read_unread,
    View.ld_unit_zero (S := S1x1024x3) zero3, View.ld_unit_zero (S := S3x4096) zero2, View.ld_unit_zero (S := S1x4096x1) zero3]

/-- A later tile leaves the scratch as it found it. -/
theorem later_key (c : Dev nD) (t : Fin cfg0.N) (h0 : ¬ t.val % 4 = 0) (x0 : Vec F S1x1024x3 .f32) (y0 : Vec F S1x4096x3 .f32)
    (k0 : Vec F S3x4096 .f32) (a0 : Vec F S1x4096x1 .f32) :
    (laterOuts c t h0 x0 y0 k0 a0).2.2 = k0 := rfl

end Cert.KernelIdeal.Tile

end
-- ==== Proof.DistanceLaws.lean ====
/-
  The mathematics that joins the two programs, over the extended reals, free of either program.

  * The squared distance between two points of three finite coordinates is the same number whether it is summed
    as three squared differences, or expanded as |a|² + |b|² − 2·(a·b) with each of the three sums started from
    zero. (At an infinite coordinate the expansion would meet ∞ − ∞; the claim's precondition rules that out.)
  * A minimum folded from +∞ over a finite index set is the infimum of the family, so the order and the grouping
    of the fold do not matter: the minimum over 4096 rows is the minimum of the four minima over the row tiles of
    1024, folded tile by tile.
-/
import Idealize.ShloMosaic.PureOps.Ideal
import Idealize.ShloMosaic.PureOps.Ideal.Laws
import Idealize.ShloMosaic.Lib.ValueIdx

noncomputable section

namespace Cert.PairDist

open Idealize.ShloMosaic Idealize.ShloMosaic.ValueIdx

/-! ## The three float constants the two programs spell -/

/-- The pattern of `2.0` denotes the real 2. -/
theorem ofBits_two : Ideal.ofBits .f32 0x40000000#32 = ((2 : ℝ) : EReal) := by
  simp [Ideal.ofBits, Ideal.ieee, -EReal.coe_mul]; norm_num

/-- The pattern of `+inf` denotes the top of the extended reals. -/
theorem ofBits_inf : Ideal.ofBits .f32 0x7F800000#32 = (⊤ : EReal) := by
  simp [Ideal.ofBits, Ideal.ieee]

/-! ## The specification: what the two result arrays of the distance stage hold -/

/-- The squared distance between query `n` and key `q` of batch `b`, of two arrays of 16 batches of 4096 points of
    3 coordinates, summed coordinate by coordinate, left to right. -/
def sqDist (X Y : (⟨3, ![16, 4096, 3]⟩ : Shape).Idx → EReal) (b : Fin 16) (n q : Fin 4096) : EReal :=
  ((X (ix3 b n (0 : Fin 3)) - Y (ix3 b q (0 : Fin 3))) * (X (ix3 b n (0 : Fin 3)) - Y (ix3 b q (0 : Fin 3)))
    + (X (ix3 b n (1 : Fin 3)) - Y (ix3 b q (1 : Fin 3))) * (X (ix3 b n (1 : Fin 3)) - Y (ix3 b q (1 : Fin 3))))
    + (X (ix3 b n (2 : Fin 3)) - Y (ix3 b q (2 : Fin 3))) * (X (ix3 b n (2 : Fin 3)) - Y (ix3 b q (2 : Fin 3)))

/-- Per query, the minimum over the keys, folded from +∞ (an array of 16 by 4096 by 1). -/
def rowMins (X Y : (⟨3, ![16, 4096, 3]⟩ : Shape).Idx → EReal) : (⟨3, ![16, 4096, 1]⟩ : Shape).Idx → EReal :=
  fun i => (Finset.univ : Finset (Fin 4096)).fold min (Ideal.ofBits .f32 0x7F800000#32) (fun q => sqDist X Y (i 0) (i 1) q)

/-- Per key, the infimum over the queries (an array of 16 by 4096 by 1). -/
def colMins (X Y : (⟨3, ![16, 4096, 3]⟩ : Shape).Idx → EReal) : (⟨3, ![16, 4096, 1]⟩ : Shape).Idx → EReal :=
  fun i => ⨅ n : Fin 4096, sqDist X Y (i 0) n (i 1)

/-! ## The squared distance, expanded -/

/-- Three squared differences of finite numbers, summed left to right, against the expansion
    `(0 + Σ a²) + (0 + Σ b²) − 2 · Σ a·b`. -/
theorem sqdist_expand (a b : Fin 3 → ℝ) :
    (((a 0 : EReal) - (b 0 : EReal)) * ((a 0 : EReal) - (b 0 : EReal))
        + ((a 1 : EReal) - (b 1 : EReal)) * ((a 1 : EReal) - (b 1 : EReal)))
      + ((a 2 : EReal) - (b 2 : EReal)) * ((a 2 : EReal) - (b 2 : EReal))
    = (((0 : EReal) + ∑ k : Fin 3, (a k : EReal) * (a k : EReal)) + ((0 : EReal) + ∑ k : Fin 3, (b k : EReal) * (b k : EReal)))
      - ((2 : ℝ) : EReal) * ∑ k : Fin 3, (a k : EReal) * (b k : EReal) := by
  simp only [Fin.sum_univ_three, zero_add, ← EReal.coe_mul, ← EReal.coe_add, ← EReal.coe_sub]
  congr 1
  ring

/-! ## Minima folded from +∞ -/

/-- A fold of `min` from the top over a whole finite type is the family's infimum. -/
theorem fold_min_top {ι : Type} [Fintype ι] (f : ι → EReal) :
    (Finset.univ : Finset ι).fold min (⊤ : EReal) f = ⨅ i, f i := by
  rw [← Finset.inf_univ_eq_iInf]
  rfl

/-- Row `r` of tile `q`, among the 4096 rows. -/
def tileRow (q : Fin 4) (r : Fin 1024) : Fin 4096 := ⟨q.val * 1024 + r.val, by have := q.isLt; have := r.isLt; omega⟩

/-- The infimum over the 4096 rows is the infimum over the four tiles of the tiles' infima. -/
theorem iInf_rows_eq_tiles (f : Fin 4096 → EReal) : (⨅ n, f n) = ⨅ q : Fin 4, ⨅ r : Fin 1024, f (tileRow q r) := by
  apply le_antisymm
  · exact le_iInf fun q => le_iInf fun r => iInf_le f (tileRow q r)
  · refine le_iInf fun n => ?_
    have hn := n.isLt
    refine (iInf_le _ (⟨n.val / 1024, by omega⟩ : Fin 4)).trans ((iInf_le _ (⟨n.val % 1024, Nat.mod_lt _ (by norm_num)⟩ : Fin 1024)).trans (le_of_eq (congrArg f ?_)))
    apply Fin.ext
    show n.val / 1024 * 1024 + n.val % 1024 = n.val
    omega

/-- The infimum over four tiles, folded tile by tile from the first. -/
theorem iInf_four (g : Fin 4 → EReal) : (⨅ q, g q) = min (min (min (g 0) (g 1)) (g 2)) (g 3) := by
  apply le_antisymm
  · exact le_min (le_min (le_min (iInf_le g 0) (iInf_le g 1)) (iInf_le g 2)) (iInf_le g 3)
  · refine le_iInf fun q => ?_
    fin_cases q
    · exact (min_le_left _ _).trans ((min_le_left _ _).trans (min_le_left _ _))
    · exact (min_le_left _ _).trans ((min_le_left _ _).trans (min_le_right _ _))
    · exact (min_le_left _ _).trans (min_le_right _ _)
    · exact min_le_right _ _

end Cert.PairDist

end
-- ==== Proof.TileStates.lean ====
/-
  The buffers' contents followed across a batch of four tiles.

  Point `t` is tile `t % 4` of batch `t / 4`. Its query block is rows `1024·(t % 4) …` of batch `t / 4` of the
  first argument; its key block is the whole of batch `t / 4` of the second argument, the same block at the four
  tiles of a batch. Hence, after every point, the scratch holds the transposed key block of the point's own
  batch (stored at tile 0, kept since), the row block holds the point's row minima against it, and at the last
  tile of a batch the column block holds the tile-by-tile fold of the four tiles' column minima.
-/
import proofs.«120201_j80212809220557_2_alg».proof.Proof.TileValues
import proofs.«120201_j80212809220557_2_alg».proof.Proof.DistanceLaws
import Idealize.ShloMosaic.Lib.ValueIdx

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The batch and the tile of a point; the blocks read at an index -/

theorem lt_points (t : Fin cfg0.N) : t.val < 64 := lt_of_lt_of_eq t.isLt (show cfg0.N = 64 from N_0)

/-- The batch of point `t`. -/
def batchOf (t : Fin cfg0.N) : Fin 16 := ⟨t.val / 4, by have := lt_points t; omega⟩
/-- The tile number of point `t`. -/
def tileOf (t : Fin cfg0.N) : Fin 4 := ⟨t.val % 4, Nat.mod_lt _ (by norm_num)⟩

/-- The query window's block index at a point: (batch, tile, 0). -/
theorem x_index : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
/-- The key window's block index at a point: (batch, 0, 0). -/
theorem y_index : ∀ t : Fin cfg0.N, win0_1.index t 0 = t.val / 4 ∧ win0_1.index t 1 = 0 ∧ win0_1.index t 2 = 0 :=
  (by decide +kernel : ∀ t : Fin grid0.N, win0_1.index t 0 = t.val / 4 ∧ win0_1.index t 1 = 0 ∧ win0_1.index t 2 = 0)

/-- The query block at point `t` reads rows `1024·tile + r` of the point's batch. -/
theorem xblk_apply (c : Dev nD) (t : Fin cfg0.N) (u : Fin 1) (r : Fin 1024) (k : Fin 3) :
    (iblk m c 0 t : Vec F S1x1024x3 .f32) (ix3 u r k)
      = V m c main_arg0 (ix3 (batchOf t) (Cert.PairDist.tileRow (tileOf t) r) k) := by
  have hi := x_index t
  have hu : u.val = 0 := by omega
  unfold iblk
  rw [View.read_apply]
  show V m c main_arg0 _ = V m c main_arg0 _
  refine congrArg (V m c main_arg0) (funext fun a => Fin.ext ?_)
  match a with
  | ⟨0, _⟩ => show win0_0.index t 0 * 1 + 1 * u.val = t.val / 4; rw [hi.1]; omega
  | ⟨1, _⟩ => show win0_0.index t 1 * 1024 + 1 * r.val = t.val % 4 * 1024 + r.val; rw [hi.2.1]; omega
  | ⟨2, _⟩ => show win0_0.index t 2 * 3 + 1 * k.val = k.val; rw [hi.2.2]; omega

/-- The key block at point `t` is the whole of the point's batch. -/
theorem yblk_apply (c : Dev nD) (t : Fin cfg0.N) (u : Fin 1) (q : Fin 4096) (k : Fin 3) :
    (iblk m c 1 t : Vec F S1x4096x3 .f32) (ix3 u q k) = V m c main_arg1 (ix3 (batchOf t) q k) := by
  have hi := y_index t
  have hu : u.val = 0 := by omega
  unfold iblk
  rw [View.read_apply]
  show V m c main_arg1 _ = V m c main_arg1 _
  refine congrArg (V m c main_arg1) (funext fun a => Fin.ext ?_)
  match a with
  | ⟨0, _⟩ => show win0_1.index t 0 * 1 + 1 * u.val = t.val / 4; rw [hi.1]; omega
  | ⟨1, _⟩ => show win0_1.index t 1 * 4096 + 1 * q.val = q.val; rw [hi.2.1]; omega
  | ⟨2, _⟩ => show win0_1.index t 2 * 3 + 1 * k.val = k.val; rw [hi.2.2]; omega

/-- Two points of one batch have the same key block. -/
theorem yblk_same (c : Dev nD) (t t' : Fin cfg0.N) (h : t.val / 4 = t'.val / 4) :
    (iblk m c 1 t : Vec F S1x4096x3 .f32) = (iblk m c 1 t' : Vec F S1x4096x3 .f32) := by
  funext j
  obtain ⟨u, q, k, rfl⟩ : ∃ (u : Fin 1) (q : Fin 4096) (k : Fin 3), j = ix3 u q k := ⟨j 0, j 1, j 2, eq_ix3 j⟩
  rw [yblk_apply, yblk_apply, show batchOf t = batchOf t' from Fin.ext h]

/-! ## The three states -/

/-- After every point the scratch holds the transposed key block of the point's batch. -/
theorem key_state (c : Dev nD) : ∀ (n : ℕ) (h : n < cfg0.N),
    (tileOuts m c n h).2.2 = k0_pay1 (iblk m c 1 ⟨n, h⟩ : Vec F S1x4096x3 .f32)
  | 0, h => (congrArg (fun p => p.2.2) (tileOuts_first m c ⟨0, h⟩ rfl)).trans (first_key c ⟨0, h⟩ rfl _ _)
  | n + 1, h => by
    by_cases h0 : (n + 1) % 4 = 0
    · exact (congrArg (fun p => p.2.2) (tileOuts_first m c ⟨n + 1, h⟩ h0)).trans (first_key c ⟨n + 1, h⟩ h0 _ _)
    · refine (congrArg (fun p => p.2.2) (tileOuts_later m c ⟨n + 1, h⟩ h0)).trans ?_
      rw [later_key]
      show (tileOuts m c n _).2.2 = _
      rw [key_state c n (Nat.lt_of_succ_lt h)]
      exact congrArg k0_pay1 (yblk_same m c ⟨n, Nat.lt_of_succ_lt h⟩ ⟨n + 1, h⟩ (by show n / 4 = (n + 1) / 4; omega))

/-- After every point the row block holds the point's row minima against its batch's transposed key block. -/
theorem row_state (c : Dev nD) (t : Fin cfg0.N) :
    (tileOuts m c t.val t.isLt).1
      = k0_pay3 (iblk m c 0 t : Vec F S1x1024x3 .f32) (k0_pay1 (iblk m c 1 t : Vec F S1x4096x3 .f32)) := by
  by_cases h0 : t.val % 4 = 0
  · exact (congrArg (fun p => p.1) (tileOuts_first m c t h0)).trans (first_row c t h0 _ _)
  · refine (congrArg (fun p => p.1) (tileOuts_later m c t h0)).trans ?_
    rw [later_row, key_state m c (t.val - 1)]
    have hz : t.val ≠ 0 := fun hz => h0 (by rw [hz])
    exact congrArg (k0_pay3 _) (congrArg k0_pay1 (yblk_same m c ⟨t.val - 1, _⟩ t (by show (t.val - 1) / 4 = t.val / 4; omega)))

/-- At a first tile the column block holds the tile's column minima. -/
theorem col_first (c : Dev nD) (t : Fin cfg0.N) (h0 : t.val % 4 = 0) :
    (tileOuts m c t.val t.isLt).2.1
      = k0_pay5 (iblk m c 0 t : Vec F S1x1024x3 .f32) (k0_pay1 (iblk m c 1 t : Vec F S1x4096x3 .f32)) :=
  (congrArg (fun p => p.2.1) (tileOuts_first m c t h0)).trans (first_col c t h0 _ _)

/-- At a later tile the column block holds the fold of the tile's column minima into what the point before left. -/
theorem col_later (c : Dev nD) (t : Fin cfg0.N) (h0 : ¬ t.val % 4 = 0) :
    (tileOuts m c t.val t.isLt).2.1
      = k0_pay6 (iblk m c 0 t : Vec F S1x1024x3 .f32) (k0_pay1 (iblk m c 1 t : Vec F S1x4096x3 .f32))
          (tileOuts m c (t.val - 1) (Nat.lt_of_le_of_lt (Nat.sub_le _ _) t.isLt)).2.1 := by
  refine (congrArg (fun p => p.2.1) (tileOuts_later m c t h0)).trans ?_
  rw [later_col, key_state m c (t.val - 1)]
  have hz : t.val ≠ 0 := fun hz => h0 (by rw [hz])
  exact congrArg (fun k => k0_pay6 _ k _) (congrArg k0_pay1 (yblk_same m c ⟨t.val - 1, _⟩ t (by show (t.val - 1) / 4 = t.val / 4; omega)))

end Cert.KernelIdeal.Tile

end
-- ==== Proof.PayloadsAt.lean ====
/-
  The body's arithmetic read at an index, at the ideal values (a float is an extended real, every operation exact).

  With `x` the query tile (1 by 1024 by 3) and `k` the transposed key block (3 by 4096):
    * the transposed key block of a key block `y` (1 by 4096 by 3) has `k[c, m] = y[0, m, c]`;
    * the distance tile has `d[r, m] = ((x[r,0] − k[0,m])² + (x[r,1] − k[1,m])²) + (x[r,2] − k[2,m])²`;
    * the row minima are `min over m of d[r, m]`, the column minima `min over r of d[r, m]`, each folded from +∞;
    * a later tile's column block is the entrywise minimum of what it held and the tile's column minima.
-/
import proofs.«120201_j80212809220557_2_alg».proof.Proof.Gen.KernelIdeal.Skeleton
import proofs.«120201_j80212809220557_2_alg».proof.Proof.DistanceLaws
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.TileMath

open Cert.KernelIdeal Cert.KernelIdeal.Gen Idealize.ShloMosaic Idealize.ShloMosaic.ValueIdx

/-! ## Three layout steps the library does not spell -/

/-- An `a` by 1 column broadcast across `b` columns reads, at `(p, q)`, the column at `p`. -/
theorem colBroadcast_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A length-`a` vector cast to an `a` by 1 column reads, at `(p, u)`, the vector at `p`. -/
theorem shapeCast_a_a1_apply {α : Type} {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    omega)

/-- A 1 by `b` row cast to 1 by `b` by 1 reads, at `(u, q, w)`, the row at `q`. -/
theorem shapeCast_1b_1b1_apply {α : Type} {b : ℕ} (v : (⟨2, ![1, b]⟩ : Shape).Idx → α)
    (h : (⟨2, ![1, b]⟩ : Shape).ShapeCasts ⟨3, ![1, b, 1]⟩) (u : Fin 1) (q : Fin b) (w : Fin 1) :
    shapeCast ⟨3, ![1, b, 1]⟩ v h (ix3 u q w) = v (ix2 (0 : Fin 1) q) :=
  shapeCast_apply v h _ _ (by
    have hu : u.val = 0 := by omega
    have hw : w.val = 0 := by omega
    rw [Shape.rowMajor_val_three, Shape.rowMajor_val_two]
    show 0 * b + q.val = (u.val * b + q.val) * 1 + w.val
    rw [hu, hw]
    omega)

/-! ## The transposed key block -/

theorem keyT_apply (y : Vec Ideal S1x4096x3 .f32) (c : Fin 3) (m : Fin 4096) :
    k0_pay1 (F := Ideal) y (ix2 c m) = y (ix3 (0 : Fin 1) m c) := by
  unfold k0_pay1; (try dsimp only)
  rw [shapeCast_self]
  exact (transpose_ix2_apply _ _ c m).trans (shapeCast_1ab_ab_apply y _ m c)

/-! ## The distance tile -/

/-- The squared distance of query row `r` of the tile from key `m`, summed coordinate by coordinate, left to right. -/
def sqd (x : Vec Ideal S1x1024x3 .f32) (k : Vec Ideal S3x4096 .f32) (r : Fin 1024) (m : Fin 4096) : EReal :=
  ((x (ix3 (0 : Fin 1) r (0 : Fin 3)) - k (ix2 (0 : Fin 3) m)) * (x (ix3 (0 : Fin 1) r (0 : Fin 3)) - k (ix2 (0 : Fin 3) m))
    + (x (ix3 (0 : Fin 1) r (1 : Fin 3)) - k (ix2 (1 : Fin 3) m)) * (x (ix3 (0 : Fin 1) r (1 : Fin 3)) - k (ix2 (1 : Fin 3) m)))
    + (x (ix3 (0 : Fin 1) r (2 : Fin 3)) - k (ix2 (2 : Fin 3) m)) * (x (ix3 (0 : Fin 1) r (2 : Fin 3)) - k (ix2 (2 : Fin 3) m))

theorem xcol0 (x : Vec Ideal S1x1024x3 .f32) (r : Fin 1024) (m : Fin 4096) :
    broadcastTo S1024x4096 (extractStridedSlice S1024x1 ![0, 0] (shapeCast S1024x3 x shapeCasts_S1x1024x3_S1024x3) slices_S1024x3_o0_0_S1024x1) broadcasts_S1024x1_S1024x4096 (ix2 r m)
      = x (ix3 (0 : Fin 1) r (0 : Fin 3)) :=
  (colBroadcast_apply _ _ r m).trans ((slice2_axis1_apply 0 _ _ r (0 : Fin 1) (0 : Fin 3) rfl).trans (shapeCast_1ab_ab_apply x _ r 0))
theorem xcol1 (x : Vec Ideal S1x1024x3 .f32) (r : Fin 1024) (m : Fin 4096) :
    broadcastTo S1024x4096 (extractStridedSlice S1024x1 ![0, 1] (shapeCast S1024x3 x shapeCasts_S1x1024x3_S1024x3) slices_S1024x3_o0_1_S1024x1) broadcasts_S1024x1_S1024x4096 (ix2 r m)
      = x (ix3 (0 : Fin 1) r (1 : Fin 3)) :=
  (colBroadcast_apply _ _ r m).trans ((slice2_axis1_apply 1 _ _ r (0 : Fin 1) (1 : Fin 3) rfl).trans (shapeCast_1ab_ab_apply x _ r 1))
theorem xcol2 (x : Vec Ideal S1x1024x3 .f32) (r : Fin 1024) (m : Fin 4096) :
    broadcastTo S1024x4096 (extractStridedSlice S1024x1 ![0, 2] (shapeCast S1024x3 x shapeCasts_S1x1024x3_S1024x3) slices_S1024x3_o0_2_S1024x1) broadcasts_S1024x1_S1024x4096 (ix2 r m)
      = x (ix3 (0 : Fin 1) r (2 : Fin 3)) :=
  (colBroadcast_apply _ _ r m).trans ((slice2_axis1_apply 2 _ _ r (0 : Fin 1) (2 : Fin 3) rfl).trans (shapeCast_1ab_ab_apply x _ r 2))

theorem krow0 (k : Vec Ideal S3x4096 .f32) (r : Fin 1024) (m : Fin 4096) :
    broadcastTo S1024x4096 (extractStridedSlice S1x4096 ![0, 0] k slices_S3x4096_o0_0_S1x4096) broadcasts_S1x4096_S1024x4096 (ix2 r m)
      = k (ix2 (0 : Fin 3) m) :=
  (broadcastTo_1b_ab_apply _ _ r m).trans (slice2_axis0_apply 0 _ _ (0 : Fin 1) m (0 : Fin 3) rfl)
theorem krow1 (k : Vec Ideal S3x4096 .f32) (r : Fin 1024) (m : Fin 4096) :
    broadcastTo S1024x4096 (extractStridedSlice S1x4096 ![1, 0] k slices_S3x4096_o1_0_S1x4096) broadcasts_S1x4096_S1024x4096 (ix2 r m)
      = k (ix2 (1 : Fin 3) m) :=
  (broadcastTo_1b_ab_apply _ _ r m).trans (slice2_axis0_apply 1 _ _ (0 : Fin 1) m (1 : Fin 3) rfl)
theorem krow2 (k : Vec Ideal S3x4096 .f32) (r : Fin 1024) (m : Fin 4096) :
    broadcastTo S1024x4096 (extractStridedSlice S1x4096 ![2, 0] k slices_S3x4096_o2_0_S1x4096) broadcasts_S1x4096_S1024x4096 (ix2 r m)
      = k (ix2 (2 : Fin 3) m) :=
  (broadcastTo_1b_ab_apply _ _ r m).trans (slice2_axis0_apply 2 _ _ (0 : Fin 1) m (2 : Fin 3) rfl)

theorem dist_apply (x : Vec Ideal S1x1024x3 .f32) (k : Vec Ideal S3x4096 .f32) (r : Fin 1024) (m : Fin 4096) :
    k0_pay2 (F := Ideal) x k (ix2 r m) = sqd x k r m := by
  unfold k0_pay2 sqd; (try dsimp only)
  simp only [addf_apply, mulf_apply, subf_apply]
  rw [xcol0, xcol1, xcol2, krow0, krow1, krow2]

/-! ## The minima -/

/-- A minimum over the lanes of a 1024 by 4096 tile, read at row `r`: the fold of `min` from the accumulator over the columns. -/
theorem rowMin_apply (src : FVec Ideal S1024x4096 .f32) (r : Fin 1024) :
    multiReduction .minimumf [1] S1024 src 0x7F800000#32 reduces_S1024x4096_S1024 (.inl rfl) rfl (ix1 r)
      = (Finset.univ : Finset (Fin 4096)).fold min (Ideal.ofBits .f32 0x7F800000#32) (fun m => src (ix2 r m)) := by
  refine (multiReduction_minimumf_eq_fold src 0x7F800000#32 reduces_S1024x4096_S1024 (.inl rfl) rfl (ix1 r)).trans ?_
  refine (reduces_S1024x4096_S1024.fold_filter_drop_single _ _ src (ix1 r)).trans ?_
  refine Finset.fold_congr fun m _ => ?_
  exact congrArg src (funext fun a => Fin.ext (by match a with | ⟨0, _⟩ => rfl | ⟨1, _⟩ => rfl))

/-- A minimum over the rows of the tile, read at column `m`. -/
theorem colMin_apply (src : FVec Ideal S1024x4096 .f32) (m : Fin 4096) :
    multiReduction .minimumf [0] S4096 src 0x7F800000#32 reduces_S1024x4096_S4096 (.inl rfl) rfl (ix1 m)
      = (Finset.univ : Finset (Fin 1024)).fold min (Ideal.ofBits .f32 0x7F800000#32) (fun r => src (ix2 r m)) := by
  refine (multiReduction_minimumf_eq_fold src 0x7F800000#32 reduces_S1024x4096_S4096 (.inl rfl) rfl (ix1 m)).trans ?_
  refine (reduces_S1024x4096_S4096.fold_filter_drop_single _ _ src (ix1 m)).trans ?_
  refine Finset.fold_congr fun r _ => ?_
  exact congrArg src (funext fun a => Fin.ext (by match a with | ⟨0, _⟩ => rfl | ⟨1, _⟩ => rfl))

/-- The tile's row minima, as stored (1 by 1024 by 1). -/
theorem rowOut_apply (x : Vec Ideal S1x1024x3 .f32) (k : Vec Ideal S3x4096 .f32) (u : Fin 1) (r : Fin 1024) (w : Fin 1) :
    k0_pay3 (F := Ideal) x k (ix3 u r w)
      = (Finset.univ : Finset (Fin 4096)).fold min (Ideal.ofBits .f32 0x7F800000#32) (fun m => sqd x k r m) := by
  unfold k0_pay3; (try dsimp only)
  refine (shapeCast_ab_1ab_apply _ _ u r w).trans ((shapeCast_a_a1_apply _ _ r w).trans ((rowMin_apply _ r).trans ?_))
  exact Finset.fold_congr fun m _ => dist_apply x k r m

/-- The tile's column minima (1 by 4096). -/
theorem colTile_apply (x : Vec Ideal S1x1024x3 .f32) (k : Vec Ideal S3x4096 .f32) (u : Fin 1) (m : Fin 4096) :
    k0_pay4 (F := Ideal) x k (ix2 u m)
      = (Finset.univ : Finset (Fin 1024)).fold min (Ideal.ofBits .f32 0x7F800000#32) (fun r => sqd x k r m) := by
  unfold k0_pay4; (try dsimp only)
  refine (shapeCast_a_1a_apply _ _ u m).trans ((colMin_apply _ m).trans ?_)
  exact Finset.fold_congr fun r _ => dist_apply x k r m

/-- The column minima stored afresh at a first tile (1 by 4096 by 1). -/
theorem colReset_apply (x : Vec Ideal S1x1024x3 .f32) (k : Vec Ideal S3x4096 .f32) (u : Fin 1) (m : Fin 4096) (w : Fin 1) :
    k0_pay5 (F := Ideal) x k (ix3 u m w)
      = (Finset.univ : Finset (Fin 1024)).fold min (Ideal.ofBits .f32 0x7F800000#32) (fun r => sqd x k r m) := by
  unfold k0_pay5; (try dsimp only)
  exact (shapeCast_1b_1b1_apply _ _ u m w).trans (colTile_apply x k 0 m)

/-- The column block after a later tile: what it held, folded with the tile's column minima. -/
theorem colFold_apply (x : Vec Ideal S1x1024x3 .f32) (k : Vec Ideal S3x4096 .f32) (a : Vec Ideal S1x4096x1 .f32) (u : Fin 1) (m : Fin 4096) (w : Fin 1) :
    k0_pay6 (F := Ideal) x k a (ix3 u m w)
      = min (a (ix3 u m w)) ((Finset.univ : Finset (Fin 1024)).fold min (Ideal.ofBits .f32 0x7F800000#32) (fun r => sqd x k r m)) := by
  unfold k0_pay6; (try dsimp only)
  rw [minimumf_apply, shapeCast_self]
  exact congrArg (min _) ((shapeCast_1b_1b1_apply _ _ u m w).trans (colTile_apply x k 0 m))

end Cert.KernelIdeal.TileMath

end
-- ==== Proof.ResultArrays.lean ====
/-
  The two arrays the region writes, at the ideal values, as functions of the two argument arrays `X`, `Y`
  (16 batches of 4096 points of 3 coordinates each).

  Write `sqDist b n q` for the squared distance between query `n` and key `q` of batch `b`, summed coordinate by
  coordinate. Then the first result array holds, at `(b, n, 0)`, the minimum over the keys `q` of `sqDist b n q`
  folded from +∞ — every point writes back the 1024 rows of its tile —, and the second holds, at `(b, q, 0)`, the
  infimum over all 4096 queries `n` of `sqDist b n q`: the last tile of a batch writes back the fold of the four
  tiles' column minima, and an infimum does not depend on how it is grouped.
-/
import proofs.«120201_j80212809220557_2_alg».proof.Proof.TileStates
import proofs.«120201_j80212809220557_2_alg».proof.Proof.PayloadsAt
import Idealize.ShloMosaic.Lib.Pipeline.Value

set_option maxRecDepth 16384

noncomputable section

namespace Cert.KernelIdeal.Tile

open Cert.KernelIdeal Cert.KernelIdeal.Gen
open Idealize.ShloMosaic Idealize.ShloMosaic.TcCoe Idealize.SL.Sem Idealize.ShloMosaic.ValueIdx
open Idealize.ShloMosaic.Pipeline (Dat)
open Cert.PairDist (tileRow sqDist rowMins colMins)
open Cert.KernelIdeal.TileMath

variable (m : (ℓ : Loc nD τ sig) → Buf (Elt Ideal) ℓ)

/-! ## A point's distance tile is a tile of `sqDist` -/

theorem sqd_eq (c : Dev nD) (t : Fin cfg0.N) (r : Fin 1024) (q : Fin 4096) :
    sqd (iblk m c 0 t : Vec Ideal S1x1024x3 .f32) (k0_pay1 (iblk m c 1 t : Vec Ideal S1x4096x3 .f32)) r q
      = sqDist (V m c main_arg0) (V m c main_arg1) (batchOf t) (tileRow (tileOf t) r) q := by
  unfold sqd sqDist
  simp only [keyT_apply, xblk_apply, yblk_apply]

/-! ## The points of a batch -/

/-- Tile `i` of batch `b`, as a grid point. -/
def pt (b : Fin 16) (i : Fin 4) : Fin cfg0.N := ⟨4 * b.val + i.val, by rw [show cfg0.N = 64 from N_0]; omega⟩

theorem batchOf_pt (b : Fin 16) (i : Fin 4) : batchOf (pt b i) = b := Fin.ext (by show (4 * b.val + i.val) / 4 = b.val; omega)
theorem tileOf_pt (b : Fin 16) (i : Fin 4) : tileOf (pt b i) = i := Fin.ext (by show (4 * b.val + i.val) % 4 = i.val; omega)

/-- The row window's block index at a point: (batch, tile, 0); the column window's: (batch, 0, 0). -/
theorem row_index : ∀ t : Fin cfg0.N, win0_2.index t 0 = t.val / 4 ∧ win0_2.index t 1 = t.val % 4 ∧ win0_2.index t 2 = 0 :=
  (by decide +kernel : ∀ t : Fin grid0.N, win0_2.index t 0 = t.val / 4 ∧ win0_2.index t 1 = t.val % 4 ∧ win0_2.index t 2 = 0)
theorem col_index : ∀ t : Fin cfg0.N, win0_3.index t 0 = t.val / 4 ∧ win0_3.index t 1 = 0 ∧ win0_3.index t 2 = 0 :=
  (by decide +kernel : ∀ t : Fin grid0.N, win0_3.index t 0 = t.val / 4 ∧ win0_3.index t 1 = 0 ∧ win0_3.index t 2 = 0)

/-! ## What each point writes back -/

/-- Every point writes back its tile's rows of `rowMins`. -/
theorem row_flushed (c : Dev nD) (t : Fin cfg0.N) :
    (dats m 0 c).flushed 2 t = ((cfg0.win 2).blk t).view.read (Elt Ideal) (rowMins (V m c main_arg0) (V m c main_arg1)) := by
  show (cfg0.win 2).cut (grid0.coords t) ((dats m 0 c).after 2 t) = _
  rw [after_row, row_state]
  have hi := row_index t
  funext j
  obtain ⟨u, r, w, rfl⟩ : ∃ (u : Fin 1) (r : Fin 1024) (w : Fin 1), j = ix3 u r w := ⟨j 0, j 1, j 2, eq_ix3 j⟩
  have hu : u.val = 0 := by omega
  have hw : w.val = 0 := by omega
  have he : ((cfg0.win 2).blk t).view.emb (ix3 u r w) = ix3 (batchOf t) (tileRow (tileOf t) r) (0 : Fin 1) := by
    funext a; apply Fin.ext
    match a with
    | ⟨0, _⟩ => show win0_2.index t 0 * 1 + 1 * u.val = t.val / 4; rw [hi.1]; omega
    | ⟨1, _⟩ => show win0_2.index t 1 * 1024 + 1 * r.val = t.val % 4 * 1024 + r.val; rw [hi.2.1]; omega
    | ⟨2, _⟩ => show win0_2.index t 2 * 1 + 1 * w.val = 0; rw [hi.2.2]; omega
  rw [View.read_apply, he]
  show k0_pay3 (F := Ideal) _ _ (ix3 u r w) = _
  rw [rowOut_apply]
  show _ = (Finset.univ : Finset (Fin 4096)).fold min (Ideal.ofBits .f32 0x7F800000#32)
    (fun q => sqDist (V m c main_arg0) (V m c main_arg1) (batchOf t) (tileRow (tileOf t) r) q)
  exact Finset.fold_congr fun q _ => sqd_eq m c t r q

/-- A tile's column minima at key `q`, as an infimum over the tile's rows. -/
theorem tile_inf (c : Dev nD) (b : Fin 16) (i : Fin 4) (q : Fin 4096) :
    (Finset.univ : Finset (Fin 1024)).fold min (Ideal.ofBits .f32 0x7F800000#32)
        (fun r => sqd (iblk m c 0 (pt b i) : Vec Ideal S1x1024x3 .f32) (k0_pay1 (iblk m c 1 (pt b i) : Vec Ideal S1x4096x3 .f32)) r q)
      = ⨅ r : Fin 1024, sqDist (V m c main_arg0) (V m c main_arg1) b (tileRow i r) q := by
  rw [Cert.PairDist.ofBits_inf, Cert.PairDist.fold_min_top]
  refine iInf_congr fun r => ?_
  rw [sqd_eq, batchOf_pt, tileOf_pt]

/-- After the last tile of batch `b` the column block holds, at key `q`, the infimum over all the batch's queries. -/
theorem col_batch (c : Dev nD) (b : Fin 16) (u : Fin 1) (q : Fin 4096) (w : Fin 1) :
    (tileOuts m c (pt b 3).val (pt b 3).isLt).2.1 (ix3 u q w)
      = ⨅ n : Fin 4096, sqDist (V m c main_arg0) (V m c main_arg1) b n q := by
  have e3 := col_later m c (pt b 3) (by show ¬ (4 * b.val + 3) % 4 = 0; omega)
  have e2 := col_later m c (pt b 2) (by show ¬ (4 * b.val + 2) % 4 = 0; omega)
  have e1 := col_later m c (pt b 1) (by show ¬ (4 * b.val + 1) % 4 = 0; omega)
  have e0 := col_first m c (pt b 0) (by show (4 * b.val + 0) % 4 = 0; omega)
  rw [e3, colFold_apply, tile_inf]
  rw [show (tileOuts m c ((pt b 3).val - 1) (Nat.lt_of_le_of_lt (Nat.sub_le _ _) (pt b 3).isLt)).2.1 = _ from e2, colFold_apply, tile_inf]
  rw [show (tileOuts m c ((pt b 2).val - 1) (Nat.lt_of_le_of_lt (Nat.sub_le _ _) (pt b 2).isLt)).2.1 = _ from e1, colFold_apply, tile_inf]
  rw [show (tileOuts m c ((pt b 1).val - 1) (Nat.lt_of_le_of_lt (Nat.sub_le _ _) (pt b 1).isLt)).2.1 = _ from e0, colReset_apply, tile_inf]
  rw [Cert.PairDist.iInf_rows_eq_tiles, Cert.PairDist.iInf_four]

/-- The last tile of a batch writes back the batch's block of `colMins`. -/
theorem col_flushed (c : Dev nD) (t : Fin cfg0.N) (hf : (cfg0.win 3).flush t = true) :
    (dats m 0 c).flushed 3 t = ((cfg0.win 3).blk t).view.read (Elt Ideal) (colMins (V m c main_arg0) (V m c main_arg1)) := by
  have h3 : t.val % 4 = 3 := (flush0_3 t).mp hf
  have hN := lt_points t
  obtain ⟨b, rfl⟩ : ∃ b : Fin 16, t = pt b 3 := ⟨⟨t.val / 4, by omega⟩, Fin.ext (by show t.val = 4 * (t.val / 4) + 3; omega)⟩
  show (cfg0.win 3).cut (grid0.coords (pt b 3)) ((dats m 0 c).after 3 (pt b 3)) = _
  rw [after_col]
  have hi := col_index (pt b 3)
  funext j
  obtain ⟨u, q, w, rfl⟩ : ∃ (u : Fin 1) (q : Fin 4096) (w : Fin 1), j = ix3 u q w := ⟨j 0, j 1, j 2, eq_ix3 j⟩
  have hu : u.val = 0 := by omega
  have hw : w.val = 0 := by omega
  have he : ((cfg0.win 3).blk (pt b 3)).view.emb (ix3 u q w) = ix3 b q (0 : Fin 1) := by
    funext a; apply Fin.ext
    match a with
    | ⟨0, _⟩ => show win0_3.index (pt b 3) 0 * 1 + 1 * u.val = b.val; rw [hi.1]; show (4 * b.val + 3) / 4 * 1 + 1 * u.val = b.val; omega
    | ⟨1, _⟩ => show win0_3.index (pt b 3) 1 * 4096 + 1 * q.val = q.val; rw [hi.2.1]; omega
    | ⟨2, _⟩ => show win0_3.index (pt b 3) 2 * 1 + 1 * w.val = 0; rw [hi.2.2]; omega
  rw [View.read_apply, he]
  exact col_batch m c b u q w

/-! ## The covers -/

/-- An index of the first result array is in point `t`'s block iff each coordinate is in the block's range. -/
theorem row_mem (t : Fin cfg0.N) (i : S16x4096x1.Idx) :
    i ∈ ((cfg0.win 2).blk t).view.set ↔ ∀ a : Fin 3, win0_2.index t a * S1x1024x1.size a ≤ (i a).val ∧ (i a).val < win0_2.index t a * S1x1024x1.size a + S1x1024x1.size a := by
  show i ∈ ((View.whole main_v0_0).slice (win0_2.rect t)).set ↔ _
  rw [View.set_slice_whole, Rect.mem_set_unit]
  exact Iff.rfl

/-- The same for the second result array. -/
theorem col_mem (t : Fin cfg0.N) (i : S16x4096x1.Idx) :
    i ∈ ((cfg0.win 3).blk t).view.set ↔ ∀ a : Fin 3, win0_3.index t a * S1x4096x1.size a ≤ (i a).val ∧ (i a).val < win0_3.index t a * S1x4096x1.size a + S1x4096x1.size a := by
  show i ∈ ((View.whole main_v0_1).slice (win0_3.rect t)).set ↔ _
  rw [View.set_slice_whole, Rect.mem_set_unit]
  exact Iff.rfl

/-- Every index of the first result array lies in the block of the point of its batch and tile. -/
theorem row_cover (i : S16x4096x1.Idx) : ∃ t : Fin cfg0.N, (cfg0.win 2).flush t = true ∧ i ∈ ((cfg0.win 2).blk t).view.set := by
  have h0 : (i 0).val < 16 := (i 0).isLt
  have h1 : (i 1).val < 4096 := (i 1).isLt
  have h2 : (i 2).val < 1 := (i 2).isLt
  refine ⟨pt ⟨(i 0).val, h0⟩ ⟨(i 1).val / 1024, by omega⟩, flush0_2 _, ?_⟩
  have hi := row_index (pt ⟨(i 0).val, h0⟩ ⟨(i 1).val / 1024, by omega⟩)
  rw [row_mem]
  intro a
  match a with
  | ⟨0, _⟩ =>
    show win0_2.index _ 0 * 1 ≤ (i 0).val ∧ (i 0).val < win0_2.index _ 0 * 1 + 1
    rw [hi.1]; show (4 * (i 0).val + (i 1).val / 1024) / 4 * 1 ≤ (i 0).val ∧ (i 0).val < (4 * (i 0).val + (i 1).val / 1024) / 4 * 1 + 1; omega
  | ⟨1, _⟩ =>
    show win0_2.index _ 1 * 1024 ≤ (i 1).val ∧ (i 1).val < win0_2.index _ 1 * 1024 + 1024
    rw [hi.2.1]; show (4 * (i 0).val + (i 1).val / 1024) % 4 * 1024 ≤ (i 1).val ∧ (i 1).val < (4 * (i 0).val + (i 1).val / 1024) % 4 * 1024 + 1024; omega
  | ⟨2, _⟩ =>
    show win0_2.index _ 2 * 1 ≤ (i 2).val ∧ (i 2).val < win0_2.index _ 2 * 1 + 1
    rw [hi.2.2]; omega

/-- Every index of the second lies in the block the last tile of its batch writes back. -/
theorem col_cover (i : S16x4096x1.Idx) : ∃ t : Fin cfg0.N, (cfg0.win 3).flush t = true ∧ i ∈ ((cfg0.win 3).blk t).view.set := by
  have h0 : (i 0).val < 16 := (i 0).isLt
  have h1 : (i 1).val < 4096 := (i 1).isLt
  have h2 : (i 2).val < 1 := (i 2).isLt
  refine ⟨pt ⟨(i 0).val, h0⟩ 3, (flush0_3 _).mpr (by show (4 * (i 0).val + 3) % 4 = 3; omega), ?_⟩
  have hi := col_index (pt ⟨(i 0).val, h0⟩ 3)
  rw [col_mem]
  intro a
  match a with
  | ⟨0, _⟩ =>
    show win0_3.index _ 0 * 1 ≤ (i 0).val ∧ (i 0).val < win0_3.index _ 0 * 1 + 1
    rw [hi.1]; show (4 * (i 0).val + 3) / 4 * 1 ≤ (i 0).val ∧ (i 0).val < (4 * (i 0).val + 3) / 4 * 1 + 1; omega
  | ⟨1, _⟩ =>
    show win0_3.index _ 1 * 4096 ≤ (i 1).val ∧ (i 1).val < win0_3.index _ 1 * 4096 + 4096
    rw [hi.2.1]; omega
  | ⟨2, _⟩ =>
    show win0_3.index _ 2 * 1 ≤ (i 2).val ∧ (i 2).val < win0_3.index _ 2 * 1 + 1
    rw [hi.2.2]; omega

/-! ## The two arrays after the region -/

theorem final_row (c : Dev nD) : (dats m 0 c).arrAt 2 cfg0.N = rowMins (V m c main_arg0) (V m c main_arg1) :=
  (dats m 0 c).arrAt_eq_of_cover 2 (rowMins (V m c main_arg0) (V m c main_arg1)) (fun t _ => row_flushed m c t) row_cover

theorem final_col (c : Dev nD) : (dats m 0 c).arrAt 3 cfg0.N = colMins (V m c main_arg0) (V m c main_arg1) :=
  (dats m 0 c).arrAt_eq_of_cover 3 (colMins (V m c main_arg0) (V m c main_arg1)) (fun t hf => col_flushed m c t hf) col_cover

end Cert.KernelIdeal.Tile

end
-- ==== Proof.ReferenceArrays.lean ====
/-
  The reference at the ideal values, read back to the same two arrays.

  The reference computes the squared distances by the expansion |a|² + |b|² − 2·(a·b), each of the three sums a
  host sum started from zero (the inner product a `dot_general`), then takes the minimum over the keys per query
  and the minimum over the queries per key, each a host reduction folded from +∞. For finite entries the expansion
  is the coordinate-by-coordinate squared distance, and a minimum folded from +∞ over the whole axis is the
  infimum, so the two reductions are `rowMins` and `colMins` of the arguments, read without their unit axis.
  The claim's precondition says every entry of both arguments is finite: an entry whose absolute value is
  strictly below +∞ is a real number.
-/
import proofs.«120201_j80212809220557_2_alg».proof.Proof.Gen.ReferenceIdeal.Read
import proofs.«120201_j80212809220557_2_alg».proof.Proof.Gen.Pre_finite_inputs
import proofs.«120201_j80212809220557_2_alg».proof.Proof.DistanceLaws
import Idealize.ShloMosaic.Lib.ReduceAll
import Idealize.ShloMosaic.Lib.ValueIdx
import Idealize.ShloMosaic.Lib.Pipeline.Value
import Idealize.ShloMosaic.PureOps.Ideal.Laws

noncomputable section

/-! ## The precondition: every entry is a real number -/

namespace Cert.PairDist

open Idealize.ShloMosaic Idealize.ShloMosaic.ValueIdx

/-- Every entry of the array is (the coercion of) a real number. -/
def AllReal (X : (⟨3, ![16, 4096, 3]⟩ : Shape).Idx → EReal) : Prop := ∀ i, ∃ r : ℝ, X i = (r : EReal)

/-- An extended real whose absolute value compares strictly below +∞ is a real number. -/
theorem real_of_abs_lt_inf {x : EReal}
    (h : FloatOps.cmpf (F := Ideal) (φ := .f32) .olt (FloatOps.hostAbsf x) (FloatOps.ofBits .f32 0x7F800000#32) = 1#1) :
    ∃ r : ℝ, x = (r : EReal) := by
  rw [Ideal.ofBits_def, ofBits_inf] at h
  induction x using EReal.rec with
  | bot => exact absurd h (by simp [Ideal.cmpf_def, Ideal.hostAbsf_def, Ideal.absf_def, Ideal.cmp])
  | coe r => exact ⟨r, rfl⟩
  | top => exact absurd h (by simp [Ideal.cmpf_def, Ideal.hostAbsf_def, Ideal.absf_def, Ideal.cmp])

instance : Subsingleton Cert.Pre_finite_inputs.S_.Idx := ⟨fun a b => funext fun d => d.elim0⟩

/-- The printed precondition, all ones, says both arguments hold real numbers only. -/
theorem allReal_of_pre [Cert.Pre_finite_inputs.Facts] (X Y : (⟨3, ![16, 4096, 3]⟩ : Shape).Idx → EReal)
    (h : Cert.Pre_finite_inputs.fn (F := Ideal) X Y = fun _ => 1#1) : AllReal X ∧ AllReal Y := by
  have h0 := congrFun h ix0
  unfold Cert.Pre_finite_inputs.fn at h0
  dsimp only at h0
  obtain ⟨hx, hy⟩ := IntOp.andi_eq_one.1 h0
  exact ⟨fun i => real_of_abs_lt_inf (Host.reduce_andi_all _ _ _ _ _ hx i),
    fun i => real_of_abs_lt_inf (Host.reduce_andi_all _ _ _ _ _ hy i)⟩

end Cert.PairDist

/-! ## The reference's two reductions -/

namespace Cert.ReferenceIdeal.RefValue

open Cert.ReferenceIdeal Cert.ReferenceIdeal.Gen Cert.ReferenceIdeal.Read
open Idealize.ShloMosaic Idealize.ShloMosaic.ValueIdx
open Cert.PairDist (sqDist rowMins colMins AllReal)

/-- The reference's distance array, at `(b, n, q)`, is the squared distance of query `n` from key `q` of batch `b`. -/
theorem dist_apply (X Y : S16x4096x3.Idx → EReal) (hX : AllReal X) (hY : AllReal Y) (b : Fin 16) (n q : Fin 4096) :
    val_main_v12 (F := Ideal) X Y (ix3 b n q) = sqDist X Y b n q := by
  rw [val_main_v12_apply, val_main_v9_apply, val_main_v11_apply, val_main_v7_apply, val_main_v5_apply, val_main_v1_apply,
    val_main_v8_apply, val_main_v6_apply, val_main_v3_apply, val_main_v10_apply, val_main_v4_apply, val_main_cst_1_apply,
    val_main_cst_apply, val_main_cst_0_apply]
  simp only [val_main_v0_apply, val_main_v2_apply]
  have e1 : ∀ k : Fin 3, idx_main_v1 (idx_main_v5 (idx_main_v7 (ix3 b n q))) k = ix3 b n k := fun k =>
    funext fun a => Fin.ext (by match a with | ⟨0, _⟩ => rfl | ⟨1, _⟩ => rfl | ⟨2, _⟩ => rfl)
  have e3 : ∀ k : Fin 3, idx_main_v3 (idx_main_v6 (idx_main_v8 (ix3 b n q))) k = ix3 b q k := fun k =>
    funext fun a => Fin.ext (by match a with | ⟨0, _⟩ => rfl | ⟨1, _⟩ => rfl | ⟨2, _⟩ => rfl)
  have el : ∀ k : Fin 3, lidx_main_v4 (ix3 b n q) k = ix3 b n k := fun k =>
    funext fun a => Fin.ext (by match a with | ⟨0, _⟩ => rfl | ⟨1, _⟩ => rfl | ⟨2, _⟩ => rfl)
  have er : ∀ k : Fin 3, ridx_main_v4 (ix3 b n q) k = ix3 b q k := fun k =>
    funext fun a => Fin.ext (by match a with | ⟨0, _⟩ => rfl | ⟨1, _⟩ => rfl | ⟨2, _⟩ => rfl)
  simp only [e1, e3, el, er, Ideal.ofBits_def, Ideal.addf_def, Ideal.subf_def, Ideal.mulf_def, Ideal.ofBits_zero_f32,
    Cert.PairDist.ofBits_two]
  choose a ha using fun k : Fin 3 => hX (ix3 b n k)
  choose c hc using fun k : Fin 3 => hY (ix3 b q k)
  unfold sqDist
  simp only [ha, hc]
  exact (Cert.PairDist.sqdist_expand a c).symm

/-- The reference's minimum over the keys is `rowMins`, read at `(b, n, 0)`. -/
theorem rows_apply (X Y : S16x4096x3.Idx → EReal) (hX : AllReal X) (hY : AllReal Y) (b : Fin 16) (n : Fin 4096) :
    val_main_v13 (F := Ideal) X Y (ix2 b n) = rowMins X Y (ix3 b n (0 : Fin 1)) := by
  unfold val_main_v13
  rw [Host.reduce_eq_fold_single FloatOps.minimumf _ _ reducesTo_S16x4096x4096_S16x4096_d2 (by decide) h_S_ (ix2 b n)]
  show Finset.fold min (Ideal.ofBits .f32 0x7F800000#32) _ _ = Finset.fold min (Ideal.ofBits .f32 0x7F800000#32) _ _
  refine Finset.fold_congr fun q _ => ?_
  refine Eq.trans (congrArg (val_main_v12 (F := Ideal) X Y) ?_) (dist_apply X Y hX hY b n q)
  exact funext fun a => Fin.ext (by match a with | ⟨0, _⟩ => rfl | ⟨1, _⟩ => rfl | ⟨2, _⟩ => rfl)

/-- The reference's minimum over the queries is `colMins`, read at `(b, q, 0)`. -/
theorem cols_apply (X Y : S16x4096x3.Idx → EReal) (hX : AllReal X) (hY : AllReal Y) (b : Fin 16) (q : Fin 4096) :
    val_main_v17 (F := Ideal) X Y (ix2 b q) = colMins X Y (ix3 b q (0 : Fin 1)) := by
  unfold val_main_v17
  rw [Host.reduce_eq_fold_single FloatOps.minimumf _ _ reducesTo_S16x4096x4096_S16x4096_d1 (by decide) h_S_ (ix2 b q)]
  show Finset.fold min (Ideal.ofBits .f32 0x7F800000#32) _ _ = ⨅ n : Fin 4096, sqDist X Y b n q
  rw [Cert.PairDist.ofBits_inf, Cert.PairDist.fold_min_top]
  refine iInf_congr fun n => ?_
  refine Eq.trans (congrArg (val_main_v12 (F := Ideal) X Y) ?_) (dist_apply X Y hX hY b n q)
  exact funext fun a => Fin.ext (by match a with | ⟨0, _⟩ => rfl | ⟨1, _⟩ => rfl | ⟨2, _⟩ => rfl)

/-- A 16 by 4096 by 1 array read without its last unit axis. -/
theorem dropLast_apply {α : Type} (v : S16x4096x1.Idx → α) (h : S16x4096x1.ShapeCasts S16x4096) (b : Fin 16) (n : Fin 4096) :
    shapeCast S16x4096 v h (ix2 b n) = v (ix3 b n (0 : Fin 1)) :=
  shapeCast_apply v h _ _ (by
    rw [Shape.rowMajor_val_three, Shape.rowMajor_val_two]
    show (b.val * 4096 + n.val) * 1 + 0 = b.val * 4096 + n.val
    omega)

/-- So the reference's two reductions are the two specification arrays without their unit axis. -/
theorem rows_eq (X Y : S16x4096x3.Idx → EReal) (hX : AllReal X) (hY : AllReal Y) (h : S16x4096x1.ShapeCasts S16x4096) :
    val_main_v13 (F := Ideal) X Y = shapeCast S16x4096 (rowMins X Y) h := by
  funext j
  obtain ⟨b, n, rfl⟩ : ∃ (b : Fin 16) (n : Fin 4096), j = ix2 b n := ⟨j 0, j 1, eq_ix2 j⟩
  rw [rows_apply X Y hX hY, dropLast_apply]

theorem cols_eq (X Y : S16x4096x3.Idx → EReal) (hX : AllReal X) (hY : AllReal Y) (h : S16x4096x1.ShapeCasts S16x4096) :
    val_main_v17 (F := Ideal) X Y = shapeCast S16x4096 (colMins X Y) h := by
  funext j
  obtain ⟨b, q, rfl⟩ : ∃ (b : Fin 16) (q : Fin 4096), j = ix2 b q := ⟨j 0, j 1, eq_ix2 j⟩
  rw [cols_apply X Y hX hY, dropLast_apply]

end Cert.ReferenceIdeal.RefValue

end
-- ==== Proof.lean ====
/-
  The certificate of the pairwise-distance kernel against its reference.

  Both programs compute, per batch, the squared distances between 4096 queries and 4096 keys of three coordinates,
  the minimum over the keys for every query and the minimum over the queries for every key, the mean of each, the
  larger of the two means, and the mean of that over the 16 batches. The kernel builds the distances as three
  squared differences on row tiles of 1024 queries and folds the per-key minima tile by tile; the reference expands
  |a|² + |b|² − 2·(a·b) over the whole batch. For finite inputs the two distance arrays agree entry by entry, a
  minimum folded from +∞ does not depend on its grouping, and everything after the minima is the same chain of host
  operations applied to the same two arrays.

  The three frames: the two kernels' (the program as printed and its idealization differ in no operation) by the
  point-by-point run of the body with the scratch's contents carried in the region invariant; the reference's by its
  straight-line run. The idealization rewrote nothing, so there is nothing to preserve.
-/
import proofs.«120201_j80212809220557_2_alg».proof.Defs
import proofs.«120201_j80212809220557_2_alg».proof.Proof.Gen.Kernel
import proofs.«120201_j80212809220557_2_alg».proof.Proof.Gen.KernelIdeal
import proofs.«120201_j80212809220557_2_alg».proof.Proof.Gen.ReferenceIdeal
import proofs.«120201_j80212809220557_2_alg».proof.Proof.Gen.ReferenceIdeal.Run
import proofs.«120201_j80212809220557_2_alg».proof.Proof.Gen.ReferenceIdeal.Read
import proofs.«120201_j80212809220557_2_alg».proof.Proof.Gen.Pre_finite_inputs
import proofs.«120201_j80212809220557_2_alg».proof.Proof.TileFrame
import proofs.«120201_j80212809220557_2_alg».proof.Proof.WordTileFrame
import proofs.«120201_j80212809220557_2_alg».proof.Proof.ResultArrays
import proofs.«120201_j80212809220557_2_alg».proof.Proof.ReferenceArrays
import Idealize.ShloMosaic.Lib.StableHlo.Run
import Idealize.ShloMosaic.Lib.Pipeline.FrameSuffix
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo
open Cert.PairDist (rowMins colMins)

/-! ## What both programs do after the two minima -/

section Tail
open Cert.ReferenceIdeal Cert.ReferenceIdeal.Gen

/-- From the per-query minima `R` and the per-key minima `C` (16 by 4096 each): the mean of each over its 4096
    entries, the larger of the two per batch, and the mean of that over the 16 batches. -/
def meanOfMax (R C : S16x4096.Idx → EReal) : S_.Idx → EReal :=
  Host.divf (F := Ideal)
    (Host.reduceAdd (F := Ideal)
      (maximumf (F := Ideal)
        (Host.divf (F := Ideal) (Host.reduceAdd (F := Ideal) R (constant (F := Ideal) S_ .f32 0x00000000#32) reducesTo_S16x4096_S16_d1 h_S_)
          (broadcastInDim S16 ![] bcast_S_S16 (constant (F := Ideal) S_ .f32 0x45800000#32)))
        (Host.divf (F := Ideal) (Host.reduceAdd (F := Ideal) C (constant (F := Ideal) S_ .f32 0x00000000#32) reducesTo_S16x4096_S16_d1 h_S_)
          (broadcastInDim S16 ![] bcast_S_S16 (constant (F := Ideal) S_ .f32 0x45800000#32))))
      (constant (F := Ideal) S_ .f32 0x00000000#32) reducesTo_S16_S_d0 h_S_)
    (constant (F := Ideal) S_ .f32 0x41800000#32)

/-- The reference's result is that chain of its two reductions. -/
theorem reference_result (X Y : S16x4096x3.Idx → EReal) :
    Cert.ReferenceIdeal.Read.val_main_v23 (F := Ideal) X Y
      = meanOfMax (Cert.ReferenceIdeal.Read.val_main_v13 (F := Ideal) X Y) (Cert.ReferenceIdeal.Read.val_main_v17 (F := Ideal) X Y) := rfl

end Tail

/-! ## The kernel's result -/

section Kernel
open Cert.KernelIdeal Cert.KernelIdeal.Gen Cert.KernelIdeal.Tile

variable (m : (ℓ : Loc nD τ sig) → Buf (Elt Ideal) ℓ) (ρ : Dev nD → PrngReg)

/-- The result the claim names: the chain above of the two specification arrays of the arguments, each read without
    its unit axis. -/
def result (c : Dev nD) : Buf (Elt Ideal) ((c.tc : Thread nD τ).loc main_v11) :=
  meanOfMax
    (shapeCast Cert.ReferenceIdeal.S16x4096 (rowMins (m ((c.tc : Thread nD τ).loc main_arg0)) (m ((c.tc : Thread nD τ).loc main_arg1))) shapeCasts_S16x4096x1_S16x4096)
    (shapeCast Cert.ReferenceIdeal.S16x4096 (colMins (m ((c.tc : Thread nD τ).loc main_arg0)) (m ((c.tc : Thread nD τ).loc main_arg1))) shapeCasts_S16x4096x1_S16x4096)

/-- The result buffer is no array of the region and is not scoped: the frame run reads it off the host lines. -/
theorem result_bypasses : main_v11 ∈ Pipeline.restRefs sig (cfgs 0).spec :=
  Pipeline.mem_restRefs_of main_v11 rfl (fun w => by fin_cases w <;> decide)

/-- What the host lines after the region leave in the result buffer. -/
theorem tail_result (c : Dev nD) :
    Pipeline.afterTail₀ cfgs (dats m) 0 (V0 m) [hostOps1] c main_v11 = result m c := by
  have e2 : Pipeline.withArrays spec0 c (V0 m c) (fun w => (dats m 0 c).arrAt w cfg0.N) (Proc.devRef .tc main_v0_0)
      = rowMins (m ((c.tc : Thread nD τ).loc main_arg0)) (m ((c.tc : Thread nD τ).loc main_arg1)) :=
    (Pipeline.withArrays_arr spec0 launch0.win.arr_inj c _ _ 2).trans (final_row m c)
  have e3 : Pipeline.withArrays spec0 c (V0 m c) (fun w => (dats m 0 c).arrAt w cfg0.N) (Proc.devRef .tc main_v0_1)
      = colMins (m ((c.tc : Thread nD τ).loc main_arg0)) (m ((c.tc : Thread nD τ).loc main_arg1)) :=
    (Pipeline.withArrays_arr spec0 launch0.win.arr_inj c _ _ 3).trans (final_col m c)
  unfold Pipeline.afterTail₀
  show StableHlo.after hostOps1 _ (Proc.devRef .tc main_v11) = _
  after_results
  refine Eq.trans ?_ (congrArg₂ meanOfMax
    (congrArg (fun v => shapeCast Cert.ReferenceIdeal.S16x4096 v shapeCasts_S16x4096x1_S16x4096) e2)
    (congrArg (fun v => shapeCast Cert.ReferenceIdeal.S16x4096 v shapeCasts_S16x4096x1_S16x4096) e3))
  rfl

/-- The idealized kernel's run, read: the result buffer at `result`, the arguments unchanged. -/
theorem kernel_run : θ_run defs (onTc (τ := τ) (main (F := Ideal))) ⟨m, fun _ => 0, ρ⟩ (fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).2 main_v11 result_bypasses).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Kernel

/-! ## The claims -/

theorem frame_word : Cert.frame_Kernel := fun m ρ _ => Cert.Kernel.Tile.frame m ρ
theorem frame_ideal : Cert.frame_KernelIdeal := fun m ρ _ => Cert.KernelIdeal.Tile.frame m ρ
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal values, from memories agreeing on the two arguments, both programs end at `result`: the kernel by
    its run read above; the reference because, the entries being real numbers, its two reductions are the two
    specification arrays. -/
theorem algebraic : Cert.algebraic_KernelIdeal_ReferenceIdeal := by
  intro m ρ m' ρ' hpre hagree
  refine ⟨fun c => result m c, kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  obtain ⟨hX, hY⟩ := Cert.PairDist.allReal_of_pre _ _ (hpre c)
  rw [Cert.ReferenceIdeal.Read.val_main_v23_eq, reference_result,
    Cert.ReferenceIdeal.RefValue.rows_eq _ _ hX hY Cert.KernelIdeal.Gen.shapeCasts_S16x4096x1_S16x4096,
    Cert.ReferenceIdeal.RefValue.cols_eq _ _ hX hY Cert.KernelIdeal.Gen.shapeCasts_S16x4096x1_S16x4096]
  rfl

theorem claim : Cert.Claim :=
  ⟨Cert.Kernel.Gen.facts, Cert.KernelIdeal.Gen.facts, Cert.ReferenceIdeal.Gen.facts, Cert.Pre_finite_inputs.Gen.facts,
    frame_word, frame_ideal, frame_reference, preserves, algebraic⟩

end Cert.Proof

end
